-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S6400000 : Shape := ⟨1, ![6400000]⟩
abbrev S2x6400000 : Shape := ⟨2, ![2, 6400000]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel
  bcast_S_S6400000 : S_.BroadcastsInDim S6400000 (![] : Fin 0 → Fin S6400000.rank)
  reducesTo_S6400000_S_d0 : S6400000.ReducesTo [0] S_

variable [Facts]

def fn_part4 {F : FTy → Type} [FloatOps F] (main_arg14 : FVec F S100000 .f32) (main_arg15 : FVec F S100000 .f32) (main_arg16 : FVec F S100000 .f32) (main_v63 : IVec S_ 1) (main_v67 : IVec S_ 1) : IVec S_ 1 :=
  let main_v68 : IVec S_ 1 := andi main_v63 main_v67
  let main_v69 : FVec F S100000 .f32 := Host.absf main_arg14
  let main_cst_26 : FVec F S_ .f32 := constant S_ .f32 0x7F800000#32
  let main_v70 : FVec F S100000 .f32 := broadcastInDim S100000 ![] bcast_S_S100000 main_cst_26
  let main_v71 : IVec S100000 1 := cmpf .olt main_v69 main_v70
  let main_c_27 : IVec S_ 1 := constantI S_ 1 1#1
  let main_v72 : IVec S_ 1 := (fun x v => Host.reduce IntOp.andi x v reducesTo_S100000_S_d0 h_S_) main_v71 main_c_27
  let main_v73 : IVec S_ 1 := andi main_v68 main_v72
  let main_v74 : FVec F S100000 .f32 := Host.absf main_arg15
  let main_cst_28 : FVec F S_ .f32 := constant S_ .f32 0x7F800000#32
  let main_v75 : FVec F S100000 .f32 := broadcastInDim S100000 ![] bcast_S_S100000 main_cst_28
  let main_v76 : IVec S100000 1 := cmpf .olt main_v74 main_v75
  let main_c_29 : IVec S_ 1 := constantI S_ 1 1#1
  let main_v77 : IVec S_ 1 := (fun x v => Host.reduce IntOp.andi x v reducesTo_S100000_S_d0 h_S_) main_v76 main_c_29
  let main_v78 : IVec S_ 1 := andi main_v73 main_v77
  let main_v79 : FVec F S100000 .f32 := Host.absf main_arg16
  let main_cst_30 : FVec F S_ .f32 := constant S_ .f32 0x7F800000#32
  let main_v80 : FVec F S100000 .f32 := broadcastInDim S100000 ![] bcast_S_S100000 main_cst_30
  let main_v81 : IVec S100000 1 := cmpf .olt main_v79 main_v80
  let main_c_31 : IVec S_ 1 := constantI S_ 1 1#1
  let main_v82 : IVec S_ 1 := (fun x v => Host.reduce IntOp.andi x v reducesTo_S100000_S_d0 h_S_) main_v81 main_c_31
  let main_v83 : IVec S_ 1 := andi main_v78 main_v82
  main_v83

def fn_part3 {F : FTy → Type} [FloatOps F] (main_arg11 : FVec F S100000 .f32) (main_arg12 : FVec F S100000 .f32) (main_arg13 : FVec F S100000 .f32) (main_arg14 : FVec F S100000 .f32) (main_arg15 : FVec F S100000 .f32) (main_arg16 : FVec F S100000 .f32) (main_v48 : IVec S_ 1) (main_v49 : FVec F S100000 .f32) (main_v50 : FVec F S100000 .f32) : IVec S_ 1 :=
  let main_v51 : IVec S100000 1 := cmpf .olt main_v49 main_v50
  let main_c_19 : IVec S_ 1 := constantI S_ 1 1#1
  let main_v52 : IVec S_ 1 := (fun x v => Host.reduce IntOp.andi x v reducesTo_S100000_S_d0 h_S_) main_v51 main_c_19
  let main_v53 : IVec S_ 1 := andi main_v48 main_v52
  let main_v54 : FVec F S100000 .f32 := Host.absf main_arg11
  let main_cst_20 : FVec F S_ .f32 := constant S_ .f32 0x7F800000#32
  let main_v55 : FVec F S100000 .f32 := broadcastInDim S100000 ![] bcast_S_S100000 main_cst_20
  let main_v56 : IVec S100000 1 := cmpf .olt main_v54 main_v55
  let main_c_21 : IVec S_ 1 := constantI S_ 1 1#1
  let main_v57 : IVec S_ 1 := (fun x v => Host.reduce IntOp.andi x v reducesTo_S100000_S_d0 h_S_) main_v56 main_c_21
  let main_v58 : IVec S_ 1 := andi main_v53 main_v57
  let main_v59 : FVec F S100000 .f32 := Host.absf main_arg12
  let main_cst_22 : FVec F S_ .f32 := constant S_ .f32 0x7F800000#32
  let main_v60 : FVec F S100000 .f32 := broadcastInDim S100000 ![] bcast_S_S100000 main_cst_22
  let main_v61 : IVec S100000 1 := cmpf .olt main_v59 main_v60
  let main_c_23 : IVec S_ 1 := constantI S_ 1 1#1
  let main_v62 : IVec S_ 1 := (fun x v => Host.reduce IntOp.andi x v reducesTo_S100000_S_d0 h_S_) main_v61 main_c_23
  let main_v63 : IVec S_ 1 := andi main_v58 main_v62
  let main_v64 : FVec F S100000 .f32 := Host.absf main_arg13
  let main_cst_24 : FVec F S_ .f32 := constant S_ .f32 0x7F800000#32
  let main_v65 : FVec F S100000 .f32 := broadcastInDim S100000 ![] bcast_S_S100000 main_cst_24
  let main_v66 : IVec S100000 1 := cmpf .olt main_v64 main_v65
  let main_c_25 : IVec S_ 1 := constantI S_ 1 1#1
  let main_v67 : IVec S_ 1 := (fun x v => Host.reduce IntOp.andi x v reducesTo_S100000_S_d0 h_S_) main_v66 main_c_25
  fn_part4 (F := F) main_arg14 main_arg15 main_arg16 main_v63 main_v67

def fn_part2 {F : FTy → Type} [FloatOps F] (main_arg7 : FVec F S100000 .f32) (main_arg8 : FVec F S100000 .f32) (main_arg9 : FVec F S100000 .f32) (main_arg10 : FVec F S100000 .f32) (main_arg11 : FVec F S100000 .f32) (main_arg12 : FVec F S100000 .f32) (main_arg13 : FVec F S100000 .f32) (main_arg14 : FVec F S100000 .f32) (main_arg15 : FVec F S100000 .f32) (main_arg16 : FVec F S100000 .f32) (main_v33 : IVec S_ 1) : IVec S_ 1 :=
  let main_v34 : FVec F S100000 .f32 := Host.absf main_arg7
  let main_cst_12 : FVec F S_ .f32 := constant S_ .f32 0x7F800000#32
  let main_v35 : FVec F S100000 .f32 := broadcastInDim S100000 ![] bcast_S_S100000 main_cst_12
  let main_v36 : IVec S100000 1 := cmpf .olt main_v34 main_v35
  let main_c_13 : IVec S_ 1 := constantI S_ 1 1#1
  let main_v37 : IVec S_ 1 := (fun x v => Host.reduce IntOp.andi x v reducesTo_S100000_S_d0 h_S_) main_v36 main_c_13
  let main_v38 : IVec S_ 1 := andi main_v33 main_v37
  let main_v39 : FVec F S100000 .f32 := Host.absf main_arg8
  let main_cst_14 : FVec F S_ .f32 := constant S_ .f32 0x7F800000#32
  let main_v40 : FVec F S100000 .f32 := broadcastInDim S100000 ![] bcast_S_S100000 main_cst_14
  let main_v41 : IVec S100000 1 := cmpf .olt main_v39 main_v40
  let main_c_15 : IVec S_ 1 := constantI S_ 1 1#1
  let main_v42 : IVec S_ 1 := (fun x v => Host.reduce IntOp.andi x v reducesTo_S100000_S_d0 h_S_) main_v41 main_c_15
  let main_v43 : IVec S_ 1 := andi main_v38 main_v42
  let main_v44 : FVec F S100000 .f32 := Host.absf main_arg9
  let main_cst_16 : FVec F S_ .f32 := constant S_ .f32 0x7F800000#32
  let main_v45 : FVec F S100000 .f32 := broadcastInDim S100000 ![] bcast_S_S100000 main_cst_16
  let main_v46 : IVec S100000 1 := cmpf .olt main_v44 main_v45
  let main_c_17 : IVec S_ 1 := constantI S_ 1 1#1
  let main_v47 : IVec S_ 1 := (fun x v => Host.reduce IntOp.andi x v reducesTo_S100000_S_d0 h_S_) main_v46 main_c_17
  let main_v48 : IVec S_ 1 := andi main_v43 main_v47
  let main_v49 : FVec F S100000 .f32 := Host.absf main_arg10
  let main_cst_18 : FVec F S_ .f32 := constant S_ .f32 0x7F800000#32
  let main_v50 : FVec F S100000 .f32 := broadcastInDim S100000 ![] bcast_S_S100000 main_cst_18
  fn_part3 (F := F) main_arg11 main_arg12 main_arg13 main_arg14 main_arg15 main_arg16 main_v48 main_v49 main_v50

def fn_part1 {F : FTy → Type} [FloatOps F] (main_arg4 : FVec F S100000 .f32) (main_arg5 : FVec F S6400000 .f32) (main_arg6 : FVec F S100000 .f32) (main_arg7 : FVec F S100000 .f32) (main_arg8 : FVec F S100000 .f32) (main_arg9 : FVec F S100000 .f32) (main_arg10 : FVec F S100000 .f32) (main_arg11 : FVec F S100000 .f32) (main_arg12 : FVec F S100000 .f32) (main_arg13 : FVec F S100000 .f32) (main_arg14 : FVec F S100000 .f32) (main_arg15 : FVec F S100000 .f32) (main_arg16 : FVec F S100000 .f32) (main_v13 : IVec S_ 1) (main_v16 : IVec S100000 1) : IVec S_ 1 :=
  let main_c_5 : IVec S_ 1 := constantI S_ 1 1#1
  let main_v17 : IVec S_ 1 := (fun x v => Host.reduce IntOp.andi x v reducesTo_S100000_S_d0 h_S_) main_v16 main_c_5
  let main_v18 : IVec S_ 1 := andi main_v13 main_v17
  let main_v19 : FVec F S100000 .f32 := Host.absf main_arg4
  let main_cst_6 : FVec F S_ .f32 := constant S_ .f32 0x7F800000#32
  let main_v20 : FVec F S100000 .f32 := broadcastInDim S100000 ![] bcast_S_S100000 main_cst_6
  let main_v21 : IVec S100000 1 := cmpf .olt main_v19 main_v20
  let main_c_7 : IVec S_ 1 := constantI S_ 1 1#1
  let main_v22 : IVec S_ 1 := (fun x v => Host.reduce IntOp.andi x v reducesTo_S100000_S_d0 h_S_) main_v21 main_c_7
  let main_v23 : IVec S_ 1 := andi main_v18 main_v22
  let main_v24 : FVec F S6400000 .f32 := Host.absf main_arg5
  let main_cst_8 : FVec F S_ .f32 := constant S_ .f32 0x7F800000#32
  let main_v25 : FVec F S6400000 .f32 := broadcastInDim S6400000 ![] bcast_S_S6400000 main_cst_8
  let main_v26 : IVec S6400000 1 := cmpf .olt main_v24 main_v25
  let main_c_9 : IVec S_ 1 := constantI S_ 1 1#1
  let main_v27 : IVec S_ 1 := (fun x v => Host.reduce IntOp.andi x v reducesTo_S6400000_S_d0 h_S_) main_v26 main_c_9
  let main_v28 : IVec S_ 1 := andi main_v23 main_v27
  let main_v29 : FVec F S100000 .f32 := Host.absf main_arg6
  let main_cst_10 : FVec F S_ .f32 := constant S_ .f32 0x7F800000#32
  let main_v30 : FVec F S100000 .f32 := broadcastInDim S100000 ![] bcast_S_S100000 main_cst_10
  let main_v31 : IVec S100000 1 := cmpf .olt main_v29 main_v30
  let main_c_11 : IVec S_ 1 := constantI S_ 1 1#1
  let main_v32 : IVec S_ 1 := (fun x v => Host.reduce IntOp.andi x v reducesTo_S100000_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S100000 .f32) (main_arg1 : FVec F S100000 .f32) (main_arg2 : FVec F S100000 .f32) (main_arg3 : FVec F S100000 .f32) (main_arg4 : FVec F S100000 .f32) (main_arg5 : FVec F S6400000 .f32) (main_arg6 : FVec F S100000 .f32) (main_arg7 : FVec F S100000 .f32) (main_arg8 : FVec F S100000 .f32) (main_arg9 : FVec F S100000 .f32) (main_arg10 : FVec F S100000 .f32) (main_arg11 : FVec F S100000 .f32) (main_arg12 : FVec F S100000 .f32) (main_arg13 : FVec F S100000 .f32) (main_arg14 : FVec F S100000 .f32) (main_arg15 : FVec F S100000 .f32) (main_arg16 : FVec F S100000 .f32) (main_arg17 : IVec S2x6400000 32) : IVec S_ 1 :=
  let main_v0 : FVec F S100000 .f32 := Host.absf main_arg0
  let main_cst : FVec F S_ .f32 := constant S_ .f32 0x7F800000#32
  let main_v1 : FVec F S100000 .f32 := broadcastInDim S100000 ![] bcast_S_S100000 main_cst
  let main_v2 : IVec S100000 1 := cmpf .olt main_v0 main_v1
  let main_c : IVec S_ 1 := constantI S_ 1 1#1
  let main_v3 : IVec S_ 1 := (fun x v => Host.reduce IntOp.andi x v reducesTo_S100000_S_d0 h_S_) main_v2 main_c
  let main_v4 : FVec F S100000 .f32 := Host.absf main_arg1
  let main_cst_0 : FVec F S_ .f32 := constant S_ .f32 0x7F800000#32
  let main_v5 : FVec F S100000 .f32 := broadcastInDim S100000 ![] bcast_S_S100000 main_cst_0
  let main_v6 : IVec S100000 1 := cmpf .olt main_v4 main_v5
  let main_c_1 : IVec S_ 1 := constantI S_ 1 1#1
  let main_v7 : IVec S_ 1 := (fun x v => Host.reduce IntOp.andi x v reducesTo_S100000_S_d0 h_S_) main_v6 main_c_1
  let main_v8 : IVec S_ 1 := andi main_v3 main_v7
  let main_v9 : FVec F S100000 .f32 := Host.absf main_arg2
  let main_cst_2 : FVec F S_ .f32 := constant S_ .f32 0x7F800000#32
  let main_v10 : FVec F S100000 .f32 := broadcastInDim S100000 ![] bcast_S_S100000 main_cst_2
  let main_v11 : IVec S100000 1 := cmpf .olt main_v9 main_v10
  let main_c_3 : IVec S_ 1 := constantI S_ 1 1#1
  let main_v12 : IVec S_ 1 := (fun x v => Host.reduce IntOp.andi x v reducesTo_S100000_S_d0 h_S_) main_v11 main_c_3
  let main_v13 : IVec S_ 1 := andi main_v8 main_v12
  let main_v14 : FVec F S100000 .f32 := Host.absf main_arg3
  let main_cst_4 : FVec F S_ .f32 := constant S_ .f32 0x7F800000#32
  let main_v15 : FVec F S100000 .f32 := broadcastInDim S100000 ![] bcast_S_S100000 main_cst_4
  let main_v16 : IVec S100000 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S100000 : Shape := ⟨1, ![100000]⟩
abbrev S6400000 : Shape := ⟨1, ![6400000]⟩
abbrev S2x6400000 : Shape := ⟨2, ![2, 6400000]⟩
abbrev S1x6400000 : Shape := ⟨2, ![1, 6400000]⟩
abbrev S_ : Shape := ⟨0, ![]⟩
abbrev S100096 : Shape := ⟨1, ![100096]⟩
abbrev S782x128 : Shape := ⟨2, ![782, 128]⟩
abbrev S6400000x1 : Shape := ⟨2, ![6400000, 1]⟩
abbrev S50000x128 : Shape := ⟨2, ![50000, 128]⟩
abbrev S10000x128 : Shape := ⟨2, ![10000, 128]⟩
abbrev S100000x1 : Shape := ⟨2, ![100000, 1]⟩

abbrev nBuf : Space → Nat
  | .hbm => 121
  | .vmem => 27
  | .smem => 0
  | _ => 0

abbrev bufTy : (tb : Table) → Fin (tcTables nBuf tb) → BufTy
  | .hbm, ⟨0, _⟩ => ⟨S100000, .f32⟩
  | .hbm, ⟨1, _⟩ => ⟨S100000, .f32⟩
  | .hbm, ⟨2, _⟩ => ⟨S100000, .f32⟩
  | .hbm, ⟨3, _⟩ => ⟨S100000, .f32⟩
  | .hbm, ⟨4, _⟩ => ⟨S100000, .f32⟩
  | .hbm, ⟨5, _⟩ => ⟨S6400000, .f32⟩
  | .hbm, ⟨6, _⟩ => ⟨S100000, .f32⟩
  | .hbm, ⟨7, _⟩ => ⟨S100000, .f32⟩
  | .hbm, ⟨8, _⟩ => ⟨S100000, .f32⟩
  | .hbm, ⟨9, _⟩ => ⟨S100000, .f32⟩
  | .hbm, ⟨10, _⟩ => ⟨S100000, .f32⟩
  | .hbm, ⟨11, _⟩ => ⟨S100000, .f32⟩
  | .hbm, ⟨12, _⟩ => ⟨S100000, .f32⟩
  | .hbm, ⟨13, _⟩ => ⟨S100000, .f32⟩
  | .hbm, ⟨14, _⟩ => ⟨S100000, .f32⟩
  | .hbm, ⟨15, _⟩ => ⟨S100000, .f32⟩
  | .hbm, ⟨16, _⟩ => ⟨S100000, .f32⟩
  | .hbm, ⟨17, _⟩ => ⟨S2x6400000, .i32⟩
  | .hbm, ⟨18, _⟩ => ⟨S1x6400000, .i32⟩
  | .hbm, ⟨19, _⟩ => ⟨S6400000, .i32⟩
  | .hbm, ⟨20, _⟩ => ⟨S1x6400000, .i32⟩
  | .hbm, ⟨21, _⟩ => ⟨S6400000, .i32⟩
  | .hbm, ⟨22, _⟩ => ⟨S_, .i32⟩
  | .hbm, ⟨23, _⟩ => ⟨S_, .f32⟩
  | .hbm, ⟨24, _⟩ => ⟨S100096, .f32⟩
  | .hbm, ⟨25, _⟩ => ⟨S782x128, .f32⟩
  | .hbm, ⟨26, _⟩ => ⟨S_, .i32⟩
  | .hbm, ⟨27, _⟩ => ⟨S_, .f32⟩
  | .hbm, ⟨28, _⟩ => ⟨S100096, .f32⟩
  | .hbm, ⟨29, _⟩ => ⟨S782x128, .f32⟩
  | .hbm, ⟨30, _⟩ => ⟨S_, .i32⟩
  | .hbm, ⟨31, _⟩ => ⟨S_, .f32⟩
  | .hbm, ⟨32, _⟩ => ⟨S100096, .f32⟩
  | .hbm, ⟨33, _⟩ => ⟨S782x128, .f32⟩
  | .hbm, ⟨34, _⟩ => ⟨S_, .i32⟩
  | .hbm, ⟨35, _⟩ => ⟨S_, .f32⟩
  | .hbm, ⟨36, _⟩ => ⟨S100096, .f32⟩
  | .hbm, ⟨37, _⟩ => ⟨S782x128, .f32⟩
  | .hbm, ⟨38, _⟩ => ⟨S_, .i32⟩
  | .hbm, ⟨39, _⟩ => ⟨S_, .f32⟩
  | .hbm, ⟨40, _⟩ => ⟨S100096, .f32⟩
  | .hbm, ⟨41, _⟩ => ⟨S782x128, .f32⟩
  | .hbm, ⟨42, _⟩ => ⟨S_, .i32⟩
  | .hbm, ⟨43, _⟩ => ⟨S_, .f32⟩
  | .hbm, ⟨44, _⟩ => ⟨S100096, .f32⟩
  | .hbm, ⟨45, _⟩ => ⟨S782x128, .f32⟩
  | .hbm, ⟨46, _⟩ => ⟨S_, .i32⟩
  | .hbm, ⟨47, _⟩ => ⟨S_, .f32⟩
  | .hbm, ⟨48, _⟩ => ⟨S100096, .f32⟩
  | .hbm, ⟨49, _⟩ => ⟨S782x128, .f32⟩
  | .hbm, ⟨50, _⟩ => ⟨S_, .i32⟩
  | .hbm, ⟨51, _⟩ => ⟨S_, .f32⟩
  | .hbm, ⟨52, _⟩ => ⟨S100096, .f32⟩
  | .hbm, ⟨53, _⟩ => ⟨S782x128, .f32⟩
  | .hbm, ⟨54, _⟩ => ⟨S_, .i32⟩
  | .hbm, ⟨55, _⟩ => ⟨S_, .f32⟩
  | .hbm, ⟨56, _⟩ => ⟨S100096, .f32⟩
  | .hbm, ⟨57, _⟩ => ⟨S782x128, .f32⟩
  | .hbm, ⟨58, _⟩ => ⟨S_, .i32⟩
  | .hbm, ⟨59, _⟩ => ⟨S_, .f32⟩
  | .hbm, ⟨60, _⟩ => ⟨S100096, .f32⟩
  | .hbm, ⟨61, _⟩ => ⟨S782x128, .f32⟩
  | .hbm, ⟨62, _⟩ => ⟨S_, .i32⟩
  | .hbm, ⟨63, _⟩ => ⟨S_, .f32⟩
  | .hbm, ⟨64, _⟩ => ⟨S100096, .f32⟩
  | .hbm, ⟨65, _⟩ => ⟨S782x128, .f32⟩
  | .hbm, ⟨66, _⟩ => ⟨S_, .i32⟩
  | .hbm, ⟨67, _⟩ => ⟨S_, .f32⟩
  | .hbm, ⟨68, _⟩ => ⟨S100096, .f32⟩
  | .hbm, ⟨69, _⟩ => ⟨S782x128, .f32⟩
  | .hbm, ⟨70, _⟩ => ⟨S_, .i32⟩
  | .hbm, ⟨71, _⟩ => ⟨S_, .f32⟩
  | .hbm, ⟨72, _⟩ => ⟨S100096, .f32⟩
  | .hbm, ⟨73, _⟩ => ⟨S782x128, .f32⟩
  | .hbm, ⟨74, _⟩ => ⟨S_, .i32⟩
  | .hbm, ⟨75, _⟩ => ⟨S_, .f32⟩
  | .hbm, ⟨76, _⟩ => ⟨S100096, .f32⟩
  | .hbm, ⟨77, _⟩ => ⟨S782x128, .f32⟩
  | .hbm, ⟨78, _⟩ => ⟨S_, .i32⟩
  | .hbm, ⟨79, _⟩ => ⟨S_, .f32⟩
  | .hbm, ⟨80, _⟩ => ⟨S100096, .f32⟩
  | .hbm, ⟨81, _⟩ => ⟨S782x128, .f32⟩
  | .hbm, ⟨82, _⟩ => ⟨S782x128, .f32⟩
  | .hbm, ⟨83, _⟩ => ⟨S782x128, .f32⟩
  | .hbm, ⟨84, _⟩ => ⟨S100096, .f32⟩
  | .hbm, ⟨85, _⟩ => ⟨S100000, .f32⟩
  | .hbm, ⟨86, _⟩ => ⟨S100096, .f32⟩
  | .hbm, ⟨87, _⟩ => ⟨S100000, .f32⟩
  | .hbm, ⟨88, _⟩ => ⟨S_, .i32⟩
  | .hbm, ⟨89, _⟩ => ⟨S6400000, .i32⟩
  | .hbm, ⟨90, _⟩ => ⟨S6400000, .i1⟩
  | .hbm, ⟨91, _⟩ => ⟨S_, .i32⟩
  | .hbm, ⟨92, _⟩ => ⟨S6400000, .i32⟩
  | .hbm, ⟨93, _⟩ => ⟨S6400000, .i32⟩
  | .hbm, ⟨94, _⟩ => ⟨S6400000, .i32⟩
  | .hbm, ⟨95, _⟩ => ⟨S6400000x1, .i32⟩
  | .hbm, ⟨96, _⟩ => ⟨S6400000, .f32⟩
  | .hbm, ⟨97, _⟩ => ⟨S50000x128, .f32⟩
  | .hbm, ⟨98, _⟩ => ⟨S50000x128, .f32⟩
  | .hbm, ⟨99, _⟩ => ⟨S50000x128, .f32⟩
  | .hbm, ⟨100, _⟩ => ⟨S6400000, .f32⟩
  | .hbm, ⟨101, _⟩ => ⟨S_, .f32⟩
  | .hbm, ⟨102, _⟩ => ⟨S100000, .f32⟩
  | .hbm, ⟨103, _⟩ => ⟨S6400000x1, .i32⟩
  | .hbm, ⟨104, _⟩ => ⟨S100000, .f32⟩
  | .hbm, ⟨105, _⟩ => ⟨S_, .i32⟩
  | .hbm, ⟨106, _⟩ => ⟨S_, .f32⟩
  | .hbm, ⟨107, _⟩ => ⟨S100096, .f32⟩
  | .hbm, ⟨108, _⟩ => ⟨S782x128, .f32⟩
  | .hbm, ⟨109, _⟩ => ⟨S_, .i32⟩
  | .hbm, ⟨110, _⟩ => ⟨S_, .f32⟩
  | .hbm, ⟨111, _⟩ => ⟨S100096, .f32⟩
  | .hbm, ⟨112, _⟩ => ⟨S782x128, .f32⟩
  | .hbm, ⟨113, _⟩ => ⟨S_, .i32⟩
  | .hbm, ⟨114, _⟩ => ⟨S_, .f32⟩
  | .hbm, ⟨115, _⟩ => ⟨S100096, .f32⟩
  | .hbm, ⟨116, _⟩ => ⟨S782x128, .f32⟩
  | .hbm, ⟨117, _⟩ => ⟨S782x128, .f32⟩
  | .hbm, ⟨118, _⟩ => ⟨S100096, .f32⟩
  | .hbm, ⟨119, _⟩ => ⟨S100000, .f32⟩
  | .hbm, ⟨120, _⟩ => ⟨S100000x1, .f32⟩
  | .local _ .vmem, ⟨0, _⟩ => ⟨S782x128, .f32⟩
  | .local _ .vmem, ⟨1, _⟩ => ⟨S782x128, .f32⟩
  | .local _ .vmem, ⟨2, _⟩ => ⟨S782x128, .f32⟩
  | .local _ .vmem, ⟨3, _⟩ => ⟨S782x128, .f32⟩
  | .local _ .vmem, ⟨4, _⟩ => ⟨S782x128, .f32⟩
  | .local _ .vmem, ⟨5, _⟩ => ⟨S782x128, .f32⟩
  | .local _ .vmem, ⟨6, _⟩ => ⟨S782x128, .f32⟩
  | .local _ .vmem, ⟨7, _⟩ => ⟨S782x128, .f32⟩
  | .local _ .vmem, ⟨8, _⟩ => ⟨S782x128, .f32⟩
  | .local _ .vmem, ⟨9, _⟩ => ⟨S782x128, .f32⟩
  | .local _ .vmem, ⟨10, _⟩ => ⟨S782x128, .f32⟩
  | .local _ .vmem, ⟨11, _⟩ => ⟨S782x128, .f32⟩
  | .local _ .vmem, ⟨12, _⟩ => ⟨S782x128, .f32⟩
  | .local _ .vmem, ⟨13, _⟩ => ⟨S782x128, .f32⟩
  | .local _ .vmem, ⟨14, _⟩ => ⟨S782x128, .f32⟩
  | .local _ .vmem, ⟨15, _⟩ => ⟨S782x128, .f32⟩
  | .local _ .vmem, ⟨16, _⟩ => ⟨S782x128, .f32⟩
  | .local _ .vmem, ⟨17, _⟩ => ⟨S10000x128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S10000x128, .f32⟩
  | .local _ .vmem, ⟨23, _⟩ => ⟨S782x128, .f32⟩
  | .local _ .vmem, ⟨24, _⟩ => ⟨S782x128, .f32⟩
  | .local _ .vmem, ⟨25, _⟩ => ⟨S782x128, .f32⟩
  | .local _ .vmem, ⟨26, _⟩ => ⟨S782x128, .f32⟩
  | _, _ => ⟨S100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_call0_v0 : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_call1_v0 : Ref sig .tc := ⟨.hbm, 27, rfl⟩
abbrev main_v6 : Ref sig .tc := ⟨.hbm, 28, rfl⟩
abbrev main_v7 : Ref sig .tc := ⟨.hbm, 29, rfl⟩
abbrev main_c_1 : Ref sig .tc := ⟨.hbm, 30, rfl⟩
abbrev main_call2_v0 : Ref sig .tc := ⟨.hbm, 31, rfl⟩
abbrev main_v8 : Ref sig .tc := ⟨.hbm, 32, rfl⟩
abbrev main_v9 : Ref sig .tc := ⟨.hbm, 33, rfl⟩
abbrev main_c_2 : Ref sig .tc := ⟨.hbm, 34, rfl⟩
abbrev main_call3_v0 : Ref sig .tc := ⟨.hbm, 35, rfl⟩
abbrev main_v10 : Ref sig .tc := ⟨.hbm, 36, rfl⟩
abbrev main_v11 : Ref sig .tc := ⟨.hbm, 37, rfl⟩
abbrev main_c_3 : Ref sig .tc := ⟨.hbm, 38, rfl⟩
abbrev main_call4_v0 : Ref sig .tc := ⟨.hbm, 39, rfl⟩
abbrev main_v12 : Ref sig .tc := ⟨.hbm, 40, rfl⟩
abbrev main_v13 : Ref sig .tc := ⟨.hbm, 41, rfl⟩
abbrev main_c_4 : Ref sig .tc := ⟨.hbm, 42, rfl⟩
abbrev main_call5_v0 : Ref sig .tc := ⟨.hbm, 43, rfl⟩
abbrev main_v14 : Ref sig .tc := ⟨.hbm, 44, rfl⟩
abbrev main_v15 : Ref sig .tc := ⟨.hbm, 45, rfl⟩
abbrev main_c_5 : Ref sig .tc := ⟨.hbm, 46, rfl⟩
abbrev main_call6_v0 : Ref sig .tc := ⟨.hbm, 47, rfl⟩
abbrev main_v16 : Ref sig .tc := ⟨.hbm, 48, rfl⟩
abbrev main_v17 : Ref sig .tc := ⟨.hbm, 49, rfl⟩
abbrev main_c_6 : Ref sig .tc := ⟨.hbm, 50, rfl⟩
abbrev main_call7_v0 : Ref sig .tc := ⟨.hbm, 51, rfl⟩
abbrev main_v18 : Ref sig .tc := ⟨.hbm, 52, rfl⟩
abbrev main_v19 : Ref sig .tc := ⟨.hbm, 53, rfl⟩
abbrev main_c_7 : Ref sig .tc := ⟨.hbm, 54, rfl⟩
abbrev main_call8_v0 : Ref sig .tc := ⟨.hbm, 55, rfl⟩
abbrev main_v20 : Ref sig .tc := ⟨.hbm, 56, rfl⟩
abbrev main_v21 : Ref sig .tc := ⟨.hbm, 57, rfl⟩
abbrev main_c_8 : Ref sig .tc := ⟨.hbm, 58, rfl⟩
abbrev main_call9_v0 : Ref sig .tc := ⟨.hbm, 59, rfl⟩
abbrev main_v22 : Ref sig .tc := ⟨.hbm, 60, rfl⟩
abbrev main_v23 : Ref sig .tc := ⟨.hbm, 61, rfl⟩
abbrev main_c_9 : Ref sig .tc := ⟨.hbm, 62, rfl⟩
abbrev main_call10_v0 : Ref sig .tc := ⟨.hbm, 63, rfl⟩
abbrev main_v24 : Ref sig .tc := ⟨.hbm, 64, rfl⟩
abbrev main_v25 : Ref sig .tc := ⟨.hbm, 65, rfl⟩
abbrev main_c_10 : Ref sig .tc := ⟨.hbm, 66, rfl⟩
abbrev main_call11_v0 : Ref sig .tc := ⟨.hbm, 67, rfl⟩
abbrev main_v26 : Ref sig .tc := ⟨.hbm, 68, rfl⟩
abbrev main_v27 : Ref sig .tc := ⟨.hbm, 69, rfl⟩
abbrev main_c_11 : Ref sig .tc := ⟨.hbm, 70, rfl⟩
abbrev main_call12_v0 : Ref sig .tc := ⟨.hbm, 71, rfl⟩
abbrev main_v28 : Ref sig .tc := ⟨.hbm, 72, rfl⟩
abbrev main_v29 : Ref sig .tc := ⟨.hbm, 73, rfl⟩
abbrev main_c_12 : Ref sig .tc := ⟨.hbm, 74, rfl⟩
abbrev main_call13_v0 : Ref sig .tc := ⟨.hbm, 75, rfl⟩
abbrev main_v30 : Ref sig .tc := ⟨.hbm, 76, rfl⟩
abbrev main_v31 : Ref sig .tc := ⟨.hbm, 77, rfl⟩
abbrev main_c_13 : Ref sig .tc := ⟨.hbm, 78, rfl⟩
abbrev main_call14_v0 : Ref sig .tc := ⟨.hbm, 79, rfl⟩
abbrev main_v32 : Ref sig .tc := ⟨.hbm, 80, rfl⟩
abbrev main_v33 : Ref sig .tc := ⟨.hbm, 81, rfl⟩
abbrev main_v34_0 : Ref sig .tc := ⟨.hbm, 82, rfl⟩
abbrev main_v34_1 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_c_14 : Ref sig .tc := ⟨.hbm, 88, rfl⟩
abbrev main_v39 : Ref sig .tc := ⟨.hbm, 89, rfl⟩
abbrev main_v40 : Ref sig .tc := ⟨.hbm, 90, rfl⟩
abbrev main_c_15 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_cst : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_c_16 : Ref sig .tc := ⟨.hbm, 105, rfl⟩
abbrev main_call15_v0 : Ref sig .tc := ⟨.hbm, 106, rfl⟩
abbrev main_v53 : Ref sig .tc := ⟨.hbm, 107, rfl⟩
abbrev main_v54 : Ref sig .tc := ⟨.hbm, 108, rfl⟩
abbrev main_c_17 : Ref sig .tc := ⟨.hbm, 109, rfl⟩
abbrev main_call16_v0 : Ref sig .tc := ⟨.hbm, 110, rfl⟩
abbrev main_v55 : Ref sig .tc := ⟨.hbm, 111, rfl⟩
abbrev main_v56 : Ref sig .tc := ⟨.hbm, 112, rfl⟩
abbrev main_c_18 : Ref sig .tc := ⟨.hbm, 113, rfl⟩
abbrev main_call17_v0 : Ref sig .tc := ⟨.hbm, 114, rfl⟩
abbrev main_v57 : Ref sig .tc := ⟨.hbm, 115, rfl⟩
abbrev main_v58 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_v62 : Ref sig .tc := ⟨.hbm, 120, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc2_stg0_0 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc1_sem0_0 : DmaSem sig := 17
abbrev cc1_sem0_1 : DmaSem sig := 18
abbrev cc1_sem1_0 : DmaSem sig := 19
abbrev cc1_sem1_1 : DmaSem sig := 20
abbrev cc1_sem2_0 : DmaSem sig := 21
abbrev cc1_sem2_1 : DmaSem sig := 22
abbrev cc2_sem0_0 : DmaSem sig := 23
abbrev cc2_sem1_0 : DmaSem sig := 24
abbrev cc2_sem2_0 : DmaSem sig := 25
abbrev cc2_sem3_0 : DmaSem sig := 26

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S782x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S782x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S782x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S782x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S782x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S782x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S782x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S782x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S782x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S782x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S782x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S782x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S782x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S782x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S782x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S782x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S782x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S782x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S782x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S782x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S782x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  pads_S100000_S100096_0960 : S100000.Pads (![0] : Fin 1 → Nat) ![96] ![0] S100096
  h_S_ : 0 < S_.numel
  shapeCasts_S100096_S782x128 : S100096.ShapeCasts S782x128
  inb_S782x128_S782x128_0_0 : ∀ a, (![0, 0] : Fin 2 → Nat) a + S782x128.size a ≤ S782x128.size a
  h_S782x128 : 0 < S782x128.numel
  shapeCasts_S782x128_S782x128 : S782x128.ShapeCasts S782x128
  shapeCasts_S782x128_S100096 : S782x128.ShapeCasts S100096
  slices_S100096_S100000_0 : S100096.Slices ![0] S100000
  bcast_S_S6400000 : S_.BroadcastsInDim S6400000 (![] : Fin 0 → Fin S6400000.rank)
  bcast_S6400000_S6400000x1_0 : S6400000.BroadcastsInDim S6400000x1 (![0] : Fin 1 → Fin S6400000x1.rank)
  shapeCasts_S6400000_S50000x128 : S6400000.ShapeCasts S50000x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  shapeCasts_S50000x128_S6400000 : S50000x128.ShapeCasts S6400000
  bcast_S_S100000 : S_.BroadcastsInDim S100000 (![] : Fin 0 → Fin S100000.rank)
  bcast_S100000_S100000x1_0 : S100000.BroadcastsInDim S100000x1 (![0] : Fin 1 → Fin S100000x1.rank)
  gather_S100000_S6400000x1_S6400000_n_0_n_n_0_1_1_wf : GatherDims.WF S100000 S6400000x1 S6400000 [] [0] [] [0] [] 1 ![1]
  scatter_S100000_S6400000x1_S6400000_n_0_0_1_wf : ScatterDims.WF S100000 S6400000x1 S6400000 [] [0] [0] 1
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S782x128.size a ≤ S782x128.size a
  hwx0_0 : ∀ i : grid0.Coords, EltTy.bits .f32 = 32 ∨ (Rect.block (s := S782x128) S782x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S782x128.size a ≤ S782x128.size a
  hwx0_1 : ∀ i : grid0.Coords, EltTy.bits .f32 = 32 ∨ (Rect.block (s := S782x128) S782x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S782x128.size a ≤ S782x128.size a
  hwx0_2 : ∀ i : grid0.Coords, EltTy.bits .f32 = 32 ∨ (Rect.block (s := S782x128) S782x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S782x128.size a ≤ S782x128.size a
  hwx0_3 : ∀ i : grid0.Coords, EltTy.bits .f32 = 32 ∨ (Rect.block (s := S782x128) S782x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S782x128.size a ≤ S782x128.size a
  hwx0_4 : ∀ i : grid0.Coords, EltTy.bits .f32 = 32 ∨ (Rect.block (s := S782x128) S782x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S782x128.size a ≤ S782x128.size a
  hwx0_5 : ∀ i : grid0.Coords, EltTy.bits .f32 = 32 ∨ (Rect.block (s := S782x128) S782x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S782x128.size a ≤ S782x128.size a
  hwx0_6 : ∀ i : grid0.Coords, EltTy.bits .f32 = 32 ∨ (Rect.block (s := S782x128) S782x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S782x128.size a ≤ S782x128.size a
  hwx0_7 : ∀ i : grid0.Coords, EltTy.bits .f32 = 32 ∨ (Rect.block (s := S782x128) S782x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S782x128.size a ≤ S782x128.size a
  hwx0_8 : ∀ i : grid0.Coords, EltTy.bits .f32 = 32 ∨ (Rect.block (s := S782x128) S782x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S782x128.size a ≤ S782x128.size a
  hwx0_9 : ∀ i : grid0.Coords, EltTy.bits .f32 = 32 ∨ (Rect.block (s := S782x128) S782x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S782x128.size a ≤ S782x128.size a
  hwx0_10 : ∀ i : grid0.Coords, EltTy.bits .f32 = 32 ∨ (Rect.block (s := S782x128) S782x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S782x128.size a ≤ S782x128.size a
  hwx0_11 : ∀ i : grid0.Coords, EltTy.bits .f32 = 32 ∨ (Rect.block (s := S782x128) S782x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S782x128.size a ≤ S782x128.size a
  hwx0_12 : ∀ i : grid0.Coords, EltTy.bits .f32 = 32 ∨ (Rect.block (s := S782x128) S782x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S782x128.size a ≤ S782x128.size a
  hwx0_13 : ∀ i : grid0.Coords, EltTy.bits .f32 = 32 ∨ (Rect.block (s := S782x128) S782x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S782x128.size a ≤ S782x128.size a
  hwx0_14 : ∀ i : grid0.Coords, EltTy.bits .f32 = 32 ∨ (Rect.block (s := S782x128) S782x128.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S782x128.size a ≤ S782x128.size a
  hwx0_15 : ∀ i : grid0.Coords, EltTy.bits .f32 = 32 ∨ (Rect.block (s := S782x128) S782x128.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S782x128.size a ≤ S782x128.size a
  hwx0_16 : ∀ i : grid0.Coords, EltTy.bits .f32 = 32 ∨ (Rect.block (s := S782x128) S782x128.size (cc0_transform_16 i) (hinb0_16 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S50000x128.size a
  hwx1_1 : ∀ i : grid1.Coords, EltTy.bits .f32 = 32 ∨ (Rect.block (s := S50000x128) S10000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S50000x128.size a
  hwx1_2 : ∀ i : grid1.Coords, EltTy.bits .f32 = 32 ∨ (Rect.block (s := S50000x128) S10000x128.size (cc1_transform_2 i) (hinb1_2 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S782x128.size a ≤ S782x128.size a
  hwx2_0 : ∀ i : grid2.Coords, EltTy.bits .f32 = 32 ∨ (Rect.block (s := S782x128) S782x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S782x128.size a ≤ S782x128.size a
  hwx2_1 : ∀ i : grid2.Coords, EltTy.bits .f32 = 32 ∨ (Rect.block (s := S782x128) S782x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S782x128.size a ≤ S782x128.size a
  hwx2_2 : ∀ i : grid2.Coords, EltTy.bits .f32 = 32 ∨ (Rect.block (s := S782x128) S782x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S782x128.size a ≤ S782x128.size a
  hwx2_3 : ∀ i : grid2.Coords, EltTy.bits .f32 = 32 ∨ (Rect.block (s := S782x128) S782x128.size (cc2_transform_3 i) (hinb2_3 i)).WholeWords (EltTy.packing .f32)

variable [Facts₀]

def gather_S100000_S6400000x1_S6400000_n_0_n_n_0_1_1 : GatherDims S100000 S6400000x1 S6400000 where
  offsetDims := []
  collapsedSliceDims := [0]
  operandBatchingDims := []
  startIndicesBatchingDims := []
  startIndexMap := [0]
  indexVectorDim := 1
  sliceSizes := ![1]
  wf := gather_S100000_S6400000x1_S6400000_n_0_n_n_0_1_1_wf
def scatter_S100000_S6400000x1_S6400000_n_0_0_1 : ScatterDims S100000 S6400000x1 S6400000 where
  updateWindowDims := []
  insertedWindowDims := [0]
  scatterDimsToOperandDims := [0]
  indexVectorDim := 1
  wf := scatter_S100000_S6400000x1_S6400000_n_0_0_1_wf

abbrev win0_0 : Pipeline.Window sig grid0 :=
  Pipeline.Window.ofSpec (Memref.whole main_v5) S782x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v7) S782x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S782x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S782x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S782x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S782x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S782x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v19) S782x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v21) S782x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v23) S782x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v25) S782x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v27) S782x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v29) S782x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v31) S782x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v33) S782x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v34_0) S782x128.size cc0_transform_15 reads0_15 true true 1 stage0_15 sem0_15
    hrank0 hreads0_15 hinb0_15 nbuf0_15 (Memref.isWhole_whole _) hwx0_15 hstage0_15

abbrev win0_16 : Pipeline.Window sig grid0 :=
  Pipeline.Window.ofSpec (Memref.whole main_v34_1) S782x128.size cc0_transform_16 reads0_16 true true 1 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

abbrev win1_0 : Pipeline.Window sig grid1 :=
  Pipeline.Window.ofSpec (Memref.whole main_v46) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v48) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v54) S782x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v56) S782x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v58) S782x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v59) S782x128.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000 : Shape := ⟨1, ![100000]⟩
abbrev S6400000 : Shape := ⟨1, ![6400000]⟩
abbrev S2x6400000 : Shape := ⟨2, ![2, 6400000]⟩
abbrev S1x6400000 : Shape := ⟨2, ![1, 6400000]⟩
abbrev S_ : Shape := ⟨0, ![]⟩
abbrev S6400000x1 : Shape := ⟨2, ![6400000, 1]⟩
abbrev S100000x1 : Shape := ⟨2, ![100000, 1]⟩

abbrev nBuf : Space → Nat
  | .hbm => 86
  | .vmem => 0
  | .smem => 0
  | _ => 0

abbrev bufTy : (tb : Table) → Fin (tcTables nBuf tb) → BufTy
  | .hbm, ⟨0, _⟩ => ⟨S100000, .f32⟩
  | .hbm, ⟨1, _⟩ => ⟨S100000, .f32⟩
  | .hbm, ⟨2, _⟩ => ⟨S100000, .f32⟩
  | .hbm, ⟨3, _⟩ => ⟨S100000, .f32⟩
  | .hbm, ⟨4, _⟩ => ⟨S100000, .f32⟩
  | .hbm, ⟨5, _⟩ => ⟨S6400000, .f32⟩
  | .hbm, ⟨6, _⟩ => ⟨S100000, .f32⟩
  | .hbm, ⟨7, _⟩ => ⟨S100000, .f32⟩
  | .hbm, ⟨8, _⟩ => ⟨S100000, .f32⟩
  | .hbm, ⟨9, _⟩ => ⟨S100000, .f32⟩
  | .hbm, ⟨10, _⟩ => ⟨S100000, .f32⟩
  | .hbm, ⟨11, _⟩ => ⟨S100000, .f32⟩
  | .hbm, ⟨12, _⟩ => ⟨S100000, .f32⟩
  | .hbm, ⟨13, _⟩ => ⟨S100000, .f32⟩
  | .hbm, ⟨14, _⟩ => ⟨S100000, .f32⟩
  | .hbm, ⟨15, _⟩ => ⟨S100000, .f32⟩
  | .hbm, ⟨16, _⟩ => ⟨S100000, .f32⟩
  | .hbm, ⟨17, _⟩ => ⟨S2x6400000, .i32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S100000, .f32⟩
  | .hbm, ⟨31, _⟩ => ⟨S1x6400000, .i32⟩
  | .hbm, ⟨32, _⟩ => ⟨S6400000, .i32⟩
  | .hbm, ⟨33, _⟩ => ⟨S1x6400000, .i32⟩
  | .hbm, ⟨34, _⟩ => ⟨S6400000, .i32⟩
  | .hbm, ⟨35, _⟩ => ⟨S_, .i32⟩
  | .hbm, ⟨36, _⟩ => ⟨S6400000, .i32⟩
  | .hbm, ⟨37, _⟩ => ⟨S6400000, .i1⟩
  | .hbm, ⟨38, _⟩ => ⟨S_, .i32⟩
  | .hbm, ⟨39, _⟩ => ⟨S6400000, .i32⟩
  | .hbm, ⟨40, _⟩ => ⟨S6400000, .i32⟩
  | .hbm, ⟨41, _⟩ => ⟨S6400000, .i32⟩
  | .hbm, ⟨42, _⟩ => ⟨S6400000x1, .i32⟩
  | .hbm, ⟨43, _⟩ => ⟨S6400000, .f32⟩
  | .hbm, ⟨44, _⟩ => ⟨S_, .i32⟩
  | .hbm, ⟨45, _⟩ => ⟨S6400000, .i32⟩
  | .hbm, ⟨46, _⟩ => ⟨S6400000, .i1⟩
  | .hbm, ⟨47, _⟩ => ⟨S_, .i32⟩
  | .hbm, ⟨48, _⟩ => ⟨S6400000, .i32⟩
  | .hbm, ⟨49, _⟩ => ⟨S6400000, .i32⟩
  | .hbm, ⟨50, _⟩ => ⟨S6400000, .i32⟩
  | .hbm, ⟨51, _⟩ => ⟨S6400000x1, .i32⟩
  | .hbm, ⟨52, _⟩ => ⟨S6400000, .f32⟩
  | .hbm, ⟨53, _⟩ => ⟨S6400000, .f32⟩
  | .hbm, ⟨54, _⟩ => ⟨S_, .i32⟩
  | .hbm, ⟨55, _⟩ => ⟨S6400000, .i32⟩
  | .hbm, ⟨56, _⟩ => ⟨S6400000, .i1⟩
  | .hbm, ⟨57, _⟩ => ⟨S_, .i32⟩
  | .hbm, ⟨58, _⟩ => ⟨S6400000, .i32⟩
  | .hbm, ⟨59, _⟩ => ⟨S6400000, .i32⟩
  | .hbm, ⟨60, _⟩ => ⟨S6400000, .i32⟩
  | .hbm, ⟨61, _⟩ => ⟨S6400000x1, .i32⟩
  | .hbm, ⟨62, _⟩ => ⟨S6400000, .f32⟩
  | .hbm, ⟨63, _⟩ => ⟨S6400000, .f32⟩
  | .hbm, ⟨64, _⟩ => ⟨S6400000, .f32⟩
  | .hbm, ⟨65, _⟩ => ⟨S6400000, .f32⟩
  | .hbm, ⟨66, _⟩ => ⟨S_, .f32⟩
  | .hbm, ⟨67, _⟩ => ⟨S6400000, .f32⟩
  | .hbm, ⟨68, _⟩ => ⟨S6400000, .f32⟩
  | .hbm, ⟨69, _⟩ => ⟨S_, .f32⟩
  | .hbm, ⟨70, _⟩ => ⟨S6400000, .f32⟩
  | .hbm, ⟨71, _⟩ => ⟨S6400000, .f32⟩
  | .hbm, ⟨72, _⟩ => ⟨S6400000, .f32⟩
  | .hbm, ⟨73, _⟩ => ⟨S_, .f32⟩
  | .hbm, ⟨74, _⟩ => ⟨S100000, .f32⟩
  | .hbm, ⟨75, _⟩ => ⟨S6400000x1, .i32⟩
  | .hbm, ⟨76, _⟩ => ⟨S100000, .f32⟩
  | .hbm, ⟨77, _⟩ => ⟨S100000, .f32⟩
  | .hbm, ⟨78, _⟩ => ⟨S100000, .f32⟩
  | .hbm, ⟨79, _⟩ => ⟨S100000, .f32⟩
  | .hbm, ⟨80, _⟩ => ⟨S100000, .f32⟩
  | .hbm, ⟨81, _⟩ => ⟨S100000, .f32⟩
  | .hbm, ⟨82, _⟩ => ⟨S100000, .f32⟩
  | .hbm, ⟨83, _⟩ => ⟨S100000, .f32⟩
  | .hbm, ⟨84, _⟩ => ⟨S100000, .f32⟩
  | .hbm, ⟨85, _⟩ => ⟨S100000x1, .f32⟩
  | _, _ => ⟨S100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_0 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_1 : Ref sig .tc := ⟨.hbm, 44, rfl⟩
abbrev main_v24 : Ref sig .tc := ⟨.hbm, 45, rfl⟩
abbrev main_v25 : Ref sig .tc := ⟨.hbm, 46, rfl⟩
abbrev main_c_2 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_3 : Ref sig .tc := ⟨.hbm, 54, rfl⟩
abbrev main_v32 : Ref sig .tc := ⟨.hbm, 55, rfl⟩
abbrev main_v33 : Ref sig .tc := ⟨.hbm, 56, rfl⟩
abbrev main_c_4 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst : Ref sig .tc := ⟨.hbm, 66, rfl⟩
abbrev main_v42 : Ref sig .tc := ⟨.hbm, 67, rfl⟩
abbrev main_v43 : Ref sig .tc := ⟨.hbm, 68, rfl⟩
abbrev main_cst_5 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_6 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S6400000_S6400000x1_0 : S6400000.BroadcastsInDim S6400000x1 (![0] : Fin 1 → Fin S6400000x1.rank)
  bcast_S_S100000 : S_.BroadcastsInDim S100000 (![] : Fin 0 → Fin S100000.rank)
  bcast_S100000_S100000x1_0 : S100000.BroadcastsInDim S100000x1 (![0] : Fin 1 → Fin S100000x1.rank)
  gather_S100000_S6400000x1_S6400000_n_0_n_n_0_1_1_wf : GatherDims.WF S100000 S6400000x1 S6400000 [] [0] [] [0] [] 1 ![1]
  scatter_S100000_S6400000x1_S6400000_n_0_0_1_wf : ScatterDims.WF S100000 S6400000x1 S6400000 [] [0] [0] 1

variable [Facts₀]

def gather_S100000_S6400000x1_S6400000_n_0_n_n_0_1_1 : GatherDims S100000 S6400000x1 S6400000 where
  offsetDims := []
  collapsedSliceDims := [0]
  operandBatchingDims := []
  startIndicesBatchingDims := []
  startIndexMap := [0]
  indexVectorDim := 1
  sliceSizes := ![1]
  wf := gather_S100000_S6400000x1_S6400000_n_0_n_n_0_1_1_wf
def scatter_S100000_S6400000x1_S6400000_n_0_0_1 : ScatterDims S100000 S6400000x1 S6400000 where
  updateWindowDims := []
  insertedWindowDims := [0]
  scatterDimsToOperandDims := [0]
  indexVectorDim := 1
  wf := scatter_S100000_S6400000x1_S6400000_n_0_0_1_wf

class Facts : Prop extends Facts₀ where

variable [Facts]
-- ==== Proof.KernelRun.lean ====
/-
  The kernel program's run with its result named.

  From any memory with zero counters every weakly fair execution of the program on the TensorCores terminates, nothing
  faulting; in every final state the argument arrays are as launched, and the result buffer holds what the fold of the
  program's segments leaves there: the host stretches applied in order, each of the three regions replacing its own
  arrays by what its write-backs leave.  The launch over the segments and the thread states are those of the frame; only
  the last step differs, where the final state is read at the result buffer as well as at the arguments.
-/
import proofs.«160053_j34677565948816_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with the result buffer at the fold's contents and the arguments unchanged. -/
theorem run_result : θ_run defs (onTc (τ := τ) (main (F := F))) ⟨m, fun _ => 0, ρ⟩ (fun r => ∀ c : Dev nD,
      r.2.mem ((c.tc : Thread nD τ).loc main_v62) = W43 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W43 m ρ c b)
    (hfin := fun c s' => by
      iintro ⟨⟨Hh, -⟩, HSI⟩
      unfold StableHlo.held
      imodintro
      iapply (pointsTo_read_all (Pipeline.ucRefs τ sig) (fun b => (((c : Thread nD τ)).1, b)) (W43 m ρ c) s')
      isplitl [Hh] <;> iassumption)
    (hQ := fun s h c =>
      ⟨h c _ (mem_uc main_v62 (by decide)),
       (h c _ (mem_uc main_arg0 (by decide))).trans (W43_main_arg0 m ρ c),
       (h c _ (mem_uc main_arg1 (by decide))).trans (W43_main_arg1 m ρ c),
       (h c _ (mem_uc main_arg2 (by decide))).trans (W43_main_arg2 m ρ c),
       (h c _ (mem_uc main_arg3 (by decide))).trans (W43_main_arg3 m ρ c),
       (h c _ (mem_uc main_arg4 (by decide))).trans (W43_main_arg4 m ρ c),
       (h c _ (mem_uc main_arg5 (by decide))).trans (W43_main_arg5 m ρ c),
       (h c _ (mem_uc main_arg6 (by decide))).trans (W43_main_arg6 m ρ c),
       (h c _ (mem_uc main_arg7 (by decide))).trans (W43_main_arg7 m ρ c),
       (h c _ (mem_uc main_arg8 (by decide))).trans (W43_main_arg8 m ρ c),
       (h c _ (mem_uc main_arg9 (by decide))).trans (W43_main_arg9 m ρ c),
       (h c _ (mem_uc main_arg10 (by decide))).trans (W43_main_arg10 m ρ c),
       (h c _ (mem_uc main_arg11 (by decide))).trans (W43_main_arg11 m ρ c),
       (h c _ (mem_uc main_arg12 (by decide))).trans (W43_main_arg12 m ρ c),
       (h c _ (mem_uc main_arg13 (by decide))).trans (W43_main_arg13 m ρ c),
       (h c _ (mem_uc main_arg14 (by decide))).trans (W43_main_arg14 m ρ c),
       (h c _ (mem_uc main_arg15 (by decide))).trans (W43_main_arg15 m ρ c),
       (h c _ (mem_uc main_arg16 (by decide))).trans (W43_main_arg16 m ρ c),
       (h c _ (mem_uc main_arg17 (by decide))).trans (W43_main_arg17 m ρ c)⟩)

end Cert.KernelIdeal.Run

end
-- ==== Proof.KernelTerm.lean ====
/-
  The kernel program's result as ONE composition of the operations its host side and its three bodies apply.

  A length-100000 vector is laid out on 782 rows of 128 lanes (100096 places, the 96 trailing ones filled with zero) before
  a node body reads it, and read back by dropping those places; the per-edge arrays (6400000 entries) are laid out on
  50000 rows of 128 lanes.  With these layouts:

  * the first body gives every node its synaptic activation, logistic ((v - v_half) / slope), and the part of the
    membrane current that does not depend on the synapses: ((0 - I_Na) - I_K) - I_L + (I_bias + scale * stimulus);
  * the activation is gathered at each edge's source node and multiplied by the edge's weight (second body);
  * the products are summed into each edge's destination node;
  * the third body adds the two currents and divides by the capacitance.
-/
import proofs.«160053_j34677565948816_2_alg».proof.KernelIdeal
import proofs.«160053_j34677565948816_2_alg».proof.Proof.Gen.KernelIdeal.Skeleton

noncomputable section

namespace Cert.KernelIdeal.Term

open Idealize.ShloMosaic Cert.KernelIdeal Cert.KernelIdeal.Gen

variable {F : FTy → Type} [FloatOps F]

/-- The zero that fills the trailing places: the integer zero converted. -/
def fill : (⟨S_, .f32⟩ : BufTy).Contents (Elt F) := sitofp .f32 (constantI S_ 32 0#32)

/-- A node vector on 782 rows of 128 lanes, the trailing 96 places filled. -/
def padR (x : (⟨S100000, .f32⟩ : BufTy).Contents (Elt F)) : (⟨S782x128, .f32⟩ : BufTy).Contents (Elt F) :=
  shapeCast S782x128 (pad S100096 ![0] ![96] ![0] x fill pads_S100000_S100096_0960 h_S_) shapeCasts_S100096_S782x128

/-- The first 100000 places of a 782 x 128 layout, as a node vector. -/
def unpad (A : (⟨S782x128, .f32⟩ : BufTy).Contents (Elt F)) : (⟨S100000, .f32⟩ : BufTy).Contents (Elt F) :=
  extractStridedSlice S100000 ![0] (shapeCast S100096 A shapeCasts_S782x128_S100096) slices_S100096_S100000_0

/-- Row 0 of the edge list: each edge's source node. -/
def srcIdx (ei : (⟨S2x6400000, .i32⟩ : BufTy).Contents (Elt F)) : (⟨S6400000, .i32⟩ : BufTy).Contents (Elt F) :=
  shapeCast S6400000 (extractStridedSlice S1x6400000 ![0, 0] ei slices_S2x6400000_S1x6400000_0_0) shapeCasts_S1x6400000_S6400000

/-- Row 1 of the edge list: each edge's destination node. -/
def dstIdx (ei : (⟨S2x6400000, .i32⟩ : BufTy).Contents (Elt F)) : (⟨S6400000, .i32⟩ : BufTy).Contents (Elt F) :=
  shapeCast S6400000 (extractStridedSlice S1x6400000 ![1, 0] ei slices_S2x6400000_S1x6400000_1_0) shapeCasts_S1x6400000_S6400000

/-- A node index counted from the end when negative, as a column of indices. -/
def wrapCol (s : (⟨S6400000, .i32⟩ : BufTy).Contents (Elt F)) : (⟨S6400000x1, .i32⟩ : BufTy).Contents (Elt F) :=
  broadcastInDim S6400000x1 ![0] bcast_S6400000_S6400000x1_0
    (select (cmpi .slt s (broadcastInDim S6400000 ![] bcast_S_S6400000 (constantI S_ 32 0#32)))
      (addi s (broadcastInDim S6400000 ![] bcast_S_S6400000 (constantI S_ 32 100000#32))) s)

/-- Every node's synaptic activation. -/
def act (v vh vs : (⟨S100000, .f32⟩ : BufTy).Contents (Elt F)) : (⟨S100000, .f32⟩ : BufTy).Contents (Elt F) :=
  unpad (k0_pay3 (padR v) (padR vh) (padR vs))

/-- Every node's current without the synaptic part. -/
def partialCur (v hm hh hn gNa gK gL eNa eK eL ib sc st : (⟨S100000, .f32⟩ : BufTy).Contents (Elt F)) :
    (⟨S100000, .f32⟩ : BufTy).Contents (Elt F) :=
  unpad (k0_pay1 (k0_pay2 (padR v)) (k0_pay4 (padR v) (padR gNa) (padR hm) (padR hh) (padR eNa))
    (k0_pay5 (padR v) (padR gK) (padR hn) (padR eK)) (padR gL) (padR eL) (padR ib) (padR sc) (padR st))

/-- Every edge's message: its weight times the activation gathered at its source. -/
def edgeMsg (w a : (⟨S6400000, .f32⟩ : BufTy).Contents (Elt F)) : (⟨S6400000, .f32⟩ : BufTy).Contents (Elt F) :=
  shapeCast S6400000 (mulf (shapeCast S50000x128 w shapeCasts_S6400000_S50000x128 : FVec F S50000x128 .f32)
    (shapeCast S50000x128 a shapeCasts_S6400000_S50000x128)) shapeCasts_S50000x128_S6400000

/-- Every node's synaptic current: the messages of the edges that end there, summed. -/
def synCur (ei : (⟨S2x6400000, .i32⟩ : BufTy).Contents (Elt F)) (w : (⟨S6400000, .f32⟩ : BufTy).Contents (Elt F))
    (a : (⟨S100000, .f32⟩ : BufTy).Contents (Elt F)) : (⟨S100000, .f32⟩ : BufTy).Contents (Elt F) :=
  Host.scatterAdd scatter_S100000_S6400000x1_S6400000_n_0_0_1
    (broadcastInDim S100000 ![] bcast_S_S100000 (constant S_ .f32 0x00000000#32))
    (broadcastInDim S6400000x1 ![0] bcast_S6400000_S6400000x1_0 (dstIdx ei))
    (edgeMsg w (Host.gather gather_S100000_S6400000x1_S6400000_n_0_n_n_0_1_1 a (wrapCol (srcIdx ei))))

/-- The program's result, a column: (partial current + synaptic current) / capacitance at every node. -/
def result (v st hm hh hn : (⟨S100000, .f32⟩ : BufTy).Contents (Elt F)) (w : (⟨S6400000, .f32⟩ : BufTy).Contents (Elt F))
    (vh vs gNa gK gL eNa eK eL cap ib sc : (⟨S100000, .f32⟩ : BufTy).Contents (Elt F))
    (ei : (⟨S2x6400000, .i32⟩ : BufTy).Contents (Elt F)) : (⟨S100000x1, .f32⟩ : BufTy).Contents (Elt F) :=
  broadcastInDim S100000x1 ![0] bcast_S100000_S100000x1_0
    (unpad (k2_pay1 (padR (partialCur v hm hh hn gNa gK gL eNa eK eL ib sc st))
      (padR (synCur ei w (act v vh vs))) (padR cap)))

end Cert.KernelIdeal.Term

end
-- ==== Proof.LibTypedRef.lean ====
/-
  Typed references: contents moved to the buffer's type and back.

  A called function's operations are printed over TYPED references (`StableHlo.TRef sig T`): a buffer together with the
  fact that its type is `T`.  Such an operation reads its operands through `TRef.ofBuf` (the buffer's contents as
  contents of type `T`) and writes its result through `TRef.toBuf` (the other way), both transports along that fact.  So
  a fold over such operations (`StableHlo.after`), once rewritten to the operations' functions, carries a pair
  `ofBuf (toBuf v)` around every intermediate value.  The two lemmas cancel the pairs, for any reference signature and any
  value family; with them as `simp only` lemmas the fold's term becomes the plain composition of the operations'
  functions, which a definitional comparison with a staged definition of the same value then closes quickly.  (Without
  them the comparison has to see through every transport, and on a term holding a reduction or a gather it unfolds
  those first.)
-/
import Idealize.ShloMosaic.Lib.StableHlo

namespace Idealize.ShloMosaic.StableHlo.TRef

variable {sig : RefSig} {Val : EltTy → Type} {T : BufTy}

/-- Contents moved to a typed reference's buffer type and back are unchanged. -/
theorem ofBuf_toBuf (x : TRef sig T) (v : T.Contents Val) : x.ofBuf (x.toBuf v) = v := by
  obtain ⟨r, rfl, _, _⟩ := x
  rfl

/-- A buffer's contents read at the reference's type and moved back are unchanged. -/
theorem toBuf_ofBuf (x : TRef sig T) (u : x.ref.ty.Contents Val) : x.toBuf (x.ofBuf u) = u := by
  obtain ⟨r, rfl, _, _⟩ := x
  rfl

end Idealize.ShloMosaic.StableHlo.TRef
-- ==== Proof.RegionArrays.lean ====
/-
  What each of the three regions leaves in its output arrays.

  A region's output array, after all its grid points have written back, holds the body's stored value of the region's
  input arrays as the region found them: the two node bodies run at one grid point on whole 782 x 128 arrays; the edge
  body runs at five grid points on blocks of 10000 rows, which tile the 50000 rows, and what it stores at a place depends
  only on the inputs at that place.
-/
import proofs.«160053_j34677565948816_2_alg».proof.Proof.Gen.KernelIdeal.Frame
import Idealize.ShloMosaic.Lib.Pipeline.Value

set_option maxRecDepth 16384

noncomputable section

namespace Cert.KernelIdeal.Region

open Cert.KernelIdeal Cert.KernelIdeal.Gen
open Idealize.ShloMosaic Idealize.ShloMosaic.TcCoe Idealize.SL.Sem
open Idealize.ShloMosaic.Pipeline (Dat Cfg Window)

variable {F : FTy → Type} [FloatOps F]

variable (V : (c : Dev nD) → (b : Ref sig .tc) → Buf (Elt F) ((c : Thread nD τ).loc b)) (c : Dev nD)

/-- The offsets of a rectangle that starts at the origin, written as the constant zero. -/
private theorem zero_offsets : (![0, 0] : Fin 2 → Nat) = fun _ => 0 := funext fun a => by fin_cases a <;> rfl

/-! ## Region 1: five blocks of 10000 rows -/

/-- On one block the edge body stores the elementwise product of its two loaded blocks. -/
private theorem edge_payload (x0 x1 : Vec F S10000x128 .f32) : k1_pay1 x0 x1 = mulf (x0 : FVec F S10000x128 .f32) x1 := by
  unfold k1_pay1
  simp only [shapeCast_self]

/-- At every grid point the two input blocks sit where the output block sits: block row `t`, block column 0. -/
private theorem edge_block_index : ∀ t : Fin cfg1.N,
    win1_0.index t (0 : Fin 2) = win1_2.index t (0 : Fin 2) ∧ win1_0.index t (1 : Fin 2) = win1_2.index t (1 : Fin 2)
    ∧ win1_1.index t (0 : Fin 2) = win1_2.index t (0 : Fin 2) ∧ win1_1.index t (1 : Fin 2) = win1_2.index t (1 : Fin 2)
    ∧ win1_2.index t (0 : Fin 2) = t.val ∧ win1_2.index t (1 : Fin 2) = 0 :=
  (by decide +kernel : ∀ t : Fin grid1.N, _)

/-- What grid point `t` writes back is block `t` of the elementwise product of the two whole arrays: an element of
    the output block and the two input elements it is computed from have the same place in their arrays. -/
private theorem edge_flushed (t : Fin cfg1.N) :
    (dat1 V c).flushed 2 t
      = ((cfg1.win 2).blk t).view.read (Elt F) (mulf (V c main_v46 : FVec F S50000x128 .f32) (V c main_v47)) := by
  show (cfg1.win 2).cut (grid1.coords t) ((dat1 V c).after 2 t) = _
  rw [after1_2]
  unfold Gen.out1_2
  rw [View.canon_unit_zero zero_offsets]
  simp only [View.ld_unit_zero (S := S10000x128) zero_offsets]
  rw [edge_payload]
  obtain ⟨e00, e01, e10, e11, -, -⟩ := edge_block_index t
  funext j
  show FloatOps.mulf (V c main_v46 (((cfg1.win 0).blk t).view.emb j)) (V c main_v47 (((cfg1.win 1).blk t).view.emb j))
     = FloatOps.mulf (V c main_v46 (((cfg1.win 2).blk t).view.emb j)) (V c main_v47 (((cfg1.win 2).blk t).view.emb j))
  have h0 : ((cfg1.win 0).blk t).view.emb j = ((cfg1.win 2).blk t).view.emb j := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 128 + 1 * (j 1).val = win1_2.index t (1 : Fin 2) * 128 + 1 * (j 1).val; omega
  have h1 : ((cfg1.win 1).blk t).view.emb j = ((cfg1.win 2).blk t).view.emb j := by
    funext a; apply Fin.ext
    match a with
    | ⟨0, _⟩ => show win1_1.index t (0 : Fin 2) * 10000 + 1 * (j 0).val = win1_2.index t (0 : Fin 2) * 10000 + 1 * (j 0).val; omega
    | ⟨1, _⟩ => show win1_1.index t (1 : Fin 2) * 128 + 1 * (j 1).val = win1_2.index t (1 : Fin 2) * 128 + 1 * (j 1).val; omega
  rw [h0, h1]

/-- An index of the 50000 x 128 array lies in point `t`'s output block iff each coordinate lies in the block's range. -/
private theorem edge_mem_block (t : Fin cfg1.N) (i : S50000x128.Idx) :
    i ∈ ((cfg1.win 2).blk t).view.set
      ↔ ∀ a : Fin 2, win1_2.index t a * S10000x128.size a ≤ (i a).val
          ∧ (i a).val < win1_2.index t a * S10000x128.size a + S10000x128.size a := by
  show i ∈ ((View.whole main_v48).slice (win1_2.rect t)).set ↔ _
  rw [View.set_slice_whole, Rect.mem_set_unit]
  exact Iff.rfl

/-- The five blocks tile the 50000 rows: row `r` lies in the block of point `r / 10000`. -/
private theorem edge_cover (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : grid1.N = 5 := N_1
  obtain ⟨t, ht⟩ : ∃ t : Fin cfg1.N, t.val = (i 0).val / 10000 :=
    ⟨⟨(i 0).val / 10000, by show (i 0).val / 10000 < grid1.N; omega⟩, rfl⟩
  obtain ⟨-, -, -, -, e0, e1⟩ := edge_block_index t
  refine ⟨t, flush1_2 t, ?_⟩
  rw [edge_mem_block]
  intro a
  match a with
  | ⟨0, _⟩ =>
    show win1_2.index t (0 : Fin 2) * 10000 ≤ (i 0).val ∧ (i 0).val < win1_2.index t (0 : Fin 2) * 10000 + 10000
    omega
  | ⟨1, _⟩ =>
    show win1_2.index t (1 : Fin 2) * 128 ≤ (i 1).val ∧ (i 1).val < win1_2.index t (1 : Fin 2) * 128 + 128
    omega

/-! ## Region 2: one grid point, whole 782 x 128 blocks -/

/-- At its one grid point every window of region 2 has block index 0 on both axes. -/
private theorem node_b_block_index : ∀ t : Fin cfg2.N,
    (∀ a : Fin 2, win2_0.index t a = 0) ∧ (∀ a : Fin 2, win2_1.index t a = 0)
    ∧ (∀ a : Fin 2, win2_2.index t a = 0) ∧ (∀ a : Fin 2, win2_3.index t a = 0) :=
  (by decide +kernel : ∀ t : Fin grid2.N, _)

/-- Each window's block is its whole array (block index 0 on both axes, so an element of the block has the same
    coordinates in the array): reading the block of `A` gives `A`. Windows 0, 1, 2 (inputs) and 3 (the output). -/
private theorem node_b_read0 (A : Vec F S782x128 .f32) (t : Fin cfg2.N) :
    (((cfg2.win 0).blk t).view.read (Elt F) A : Vec F S782x128 .f32) = A := by
  funext y
  show A (((cfg2.win 0).blk t).view.emb y) = A y
  exact congrArg A (funext fun a => Fin.ext (win2_0.rect_emb_val_of_index_zero t a ((node_b_block_index t).1 a) y))

private theorem node_b_read1 (A : Vec F S782x128 .f32) (t : Fin cfg2.N) :
    (((cfg2.win 1).blk t).view.read (Elt F) A : Vec F S782x128 .f32) = A := by
  funext y
  show A (((cfg2.win 1).blk t).view.emb y) = A y
  exact congrArg A (funext fun a => Fin.ext (win2_1.rect_emb_val_of_index_zero t a ((node_b_block_index t).2.1 a) y))

private theorem node_b_read2 (A : Vec F S782x128 .f32) (t : Fin cfg2.N) :
    (((cfg2.win 2).blk t).view.read (Elt F) A : Vec F S782x128 .f32) = A := by
  funext y
  show A (((cfg2.win 2).blk t).view.emb y) = A y
  exact congrArg A (funext fun a => Fin.ext (win2_2.rect_emb_val_of_index_zero t a ((node_b_block_index t).2.2.1 a) y))

private theorem node_b_read3 (A : Vec F S782x128 .f32) (t : Fin cfg2.N) :
    (((cfg2.win 3).blk t).view.read (Elt F) A : Vec F S782x128 .f32) = A := by
  funext y
  show A (((cfg2.win 3).blk t).view.emb y) = A y
  exact congrArg A (funext fun a => Fin.ext (win2_3.rect_emb_val_of_index_zero t a ((node_b_block_index t).2.2.2 a) y))

/-- So the input blocks the body loads are the three arrays as the region finds them. -/
private theorem node_b_in0 (t : Fin cfg2.N) : (iblk2 V c 0 t : Vec F S782x128 .f32) = V c main_v54 := by
  unfold Gen.iblk2; exact node_b_read0 (V c main_v54) t
private theorem node_b_in1 (t : Fin cfg2.N) : (iblk2 V c 1 t : Vec F S782x128 .f32) = V c main_v56 := by
  unfold Gen.iblk2; exact node_b_read1 (V c main_v56) t
private theorem node_b_in2 (t : Fin cfg2.N) : (iblk2 V c 2 t : Vec F S782x128 .f32) = V c main_v58 := by
  unfold Gen.iblk2; exact node_b_read2 (V c main_v58) t

/-- What the one grid point writes back is the (whole-array) block of the body's payload of the three arrays. -/
private theorem node_b_flushed (t : Fin cfg2.N) :
    (dat2 V c).flushed 3 t
      = ((cfg2.win 3).blk t).view.read (Elt F) (k2_pay1 (V c main_v54) (V c main_v56) (V c main_v58)) := by
  show (cfg2.win 3).cut (grid2.coords t) ((dat2 V c).after 3 t) = _
  rw [after2_3]
  unfold Gen.out2_3
  rw [View.canon_unit_zero zero_offsets]
  simp only [View.ld_unit_zero (S := S782x128) zero_offsets]
  rw [node_b_in0, node_b_in1, node_b_in2]
  exact (node_b_read3 (k2_pay1 (V c main_v54) (V c main_v56) (V c main_v58)) t).symm

/-- The one block covers the whole 782 x 128 array. -/
private theorem node_b_cover (i : S782x128.Idx) :
    ∃ t : Fin cfg2.N, (cfg2.win 3).flush t = true ∧ i ∈ ((cfg2.win 3).blk t).view.set := by
  have hi0 : (i 0).val < 782 := (i 0).isLt
  have hi1 : (i 1).val < 128 := (i 1).isLt
  have e := (node_b_block_index t2_0).2.2.2
  have e0 : win2_3.index t2_0 (0 : Fin 2) = 0 := e 0
  have e1 : win2_3.index t2_0 (1 : Fin 2) = 0 := e 1
  refine ⟨t2_0, flush2_3 t2_0, ?_⟩
  show i ∈ ((View.whole main_v59).slice (win2_3.rect t2_0)).set
  rw [View.set_slice_whole, Rect.mem_set_unit]
  intro a
  match a with
  | ⟨0, _⟩ =>
    show win2_3.index t2_0 (0 : Fin 2) * 782 ≤ (i 0).val ∧ (i 0).val < win2_3.index t2_0 (0 : Fin 2) * 782 + 782
    omega
  | ⟨1, _⟩ =>
    show win2_3.index t2_0 (1 : Fin 2) * 128 ≤ (i 1).val ∧ (i 1).val < win2_3.index t2_0 (1 : Fin 2) * 128 + 128
    omega

/-! ## Region 0: one grid point, whole 782 x 128 blocks, fifteen inputs and two outputs -/

/-- For a window `w` of region 0, closes `A (the place of y in the array) = A y`: the window's block index is 0 on both
    axes at every grid point (decided over the grid), so an element of the block has the same coordinates in the array. -/
local macro "whole_block" w:ident A:ident t:ident y:ident : tactic =>
  `(tactic| exact congrArg $A (funext fun a => Fin.ext (Pipeline.Window.rect_emb_val_of_index_zero $w $t a
      ((by decide +kernel : ∀ (t' : Fin grid0.N) (a' : Fin 2), Pipeline.Window.index $w t' a' = 0) $t a) $y)))

/-- Each window's block is its whole array: reading the block of `A` gives `A` (windows 0 to 14 the inputs, 15 and 16
    the outputs). -/
private theorem node_a_read0 (A : Vec F S782x128 .f32) (t : Fin cfg0.N) :
    (((cfg0.win 0).blk t).view.read (Elt F) A : Vec F S782x128 .f32) = A := by
  funext y; show A (((cfg0.win 0).blk t).view.emb y) = A y; whole_block win0_0 A t y
private theorem node_a_read1 (A : Vec F S782x128 .f32) (t : Fin cfg0.N) :
    (((cfg0.win 1).blk t).view.read (Elt F) A : Vec F S782x128 .f32) = A := by
  funext y; show A (((cfg0.win 1).blk t).view.emb y) = A y; whole_block win0_1 A t y
private theorem node_a_read2 (A : Vec F S782x128 .f32) (t : Fin cfg0.N) :
    (((cfg0.win 2).blk t).view.read (Elt F) A : Vec F S782x128 .f32) = A := by
  funext y; show A (((cfg0.win 2).blk t).view.emb y) = A y; whole_block win0_2 A t y
private theorem node_a_read3 (A : Vec F S782x128 .f32) (t : Fin cfg0.N) :
    (((cfg0.win 3).blk t).view.read (Elt F) A : Vec F S782x128 .f32) = A := by
  funext y; show A (((cfg0.win 3).blk t).view.emb y) = A y; whole_block win0_3 A t y
private theorem node_a_read4 (A : Vec F S782x128 .f32) (t : Fin cfg0.N) :
    (((cfg0.win 4).blk t).view.read (Elt F) A : Vec F S782x128 .f32) = A := by
  funext y; show A (((cfg0.win 4).blk t).view.emb y) = A y; whole_block win0_4 A t y
private theorem node_a_read5 (A : Vec F S782x128 .f32) (t : Fin cfg0.N) :
    (((cfg0.win 5).blk t).view.read (Elt F) A : Vec F S782x128 .f32) = A := by
  funext y; show A (((cfg0.win 5).blk t).view.emb y) = A y; whole_block win0_5 A t y
private theorem node_a_read6 (A : Vec F S782x128 .f32) (t : Fin cfg0.N) :
    (((cfg0.win 6).blk t).view.read (Elt F) A : Vec F S782x128 .f32) = A := by
  funext y; show A (((cfg0.win 6).blk t).view.emb y) = A y; whole_block win0_6 A t y
private theorem node_a_read7 (A : Vec F S782x128 .f32) (t : Fin cfg0.N) :
    (((cfg0.win 7).blk t).view.read (Elt F) A : Vec F S782x128 .f32) = A := by
  funext y; show A (((cfg0.win 7).blk t).view.emb y) = A y; whole_block win0_7 A t y
private theorem node_a_read8 (A : Vec F S782x128 .f32) (t : Fin cfg0.N) :
    (((cfg0.win 8).blk t).view.read (Elt F) A : Vec F S782x128 .f32) = A := by
  funext y; show A (((cfg0.win 8).blk t).view.emb y) = A y; whole_block win0_8 A t y
private theorem node_a_read9 (A : Vec F S782x128 .f32) (t : Fin cfg0.N) :
    (((cfg0.win 9).blk t).view.read (Elt F) A : Vec F S782x128 .f32) = A := by
  funext y; show A (((cfg0.win 9).blk t).view.emb y) = A y; whole_block win0_9 A t y
private theorem node_a_read10 (A : Vec F S782x128 .f32) (t : Fin cfg0.N) :
    (((cfg0.win 10).blk t).view.read (Elt F) A : Vec F S782x128 .f32) = A := by
  funext y; show A (((cfg0.win 10).blk t).view.emb y) = A y; whole_block win0_10 A t y
private theorem node_a_read11 (A : Vec F S782x128 .f32) (t : Fin cfg0.N) :
    (((cfg0.win 11).blk t).view.read (Elt F) A : Vec F S782x128 .f32) = A := by
  funext y; show A (((cfg0.win 11).blk t).view.emb y) = A y; whole_block win0_11 A t y
private theorem node_a_read12 (A : Vec F S782x128 .f32) (t : Fin cfg0.N) :
    (((cfg0.win 12).blk t).view.read (Elt F) A : Vec F S782x128 .f32) = A := by
  funext y; show A (((cfg0.win 12).blk t).view.emb y) = A y; whole_block win0_12 A t y
private theorem node_a_read13 (A : Vec F S782x128 .f32) (t : Fin cfg0.N) :
    (((cfg0.win 13).blk t).view.read (Elt F) A : Vec F S782x128 .f32) = A := by
  funext y; show A (((cfg0.win 13).blk t).view.emb y) = A y; whole_block win0_13 A t y
private theorem node_a_read14 (A : Vec F S782x128 .f32) (t : Fin cfg0.N) :
    (((cfg0.win 14).blk t).view.read (Elt F) A : Vec F S782x128 .f32) = A := by
  funext y; show A (((cfg0.win 14).blk t).view.emb y) = A y; whole_block win0_14 A t y
private theorem node_a_read15 (A : Vec F S782x128 .f32) (t : Fin cfg0.N) :
    (((cfg0.win 15).blk t).view.read (Elt F) A : Vec F S782x128 .f32) = A := by
  funext y; show A (((cfg0.win 15).blk t).view.emb y) = A y; whole_block win0_15 A t y
private theorem node_a_read16 (A : Vec F S782x128 .f32) (t : Fin cfg0.N) :
    (((cfg0.win 16).blk t).view.read (Elt F) A : Vec F S782x128 .f32) = A := by
  funext y; show A (((cfg0.win 16).blk t).view.emb y) = A y; whole_block win0_16 A t y

/-- So the input blocks the body loads are the fifteen arrays as the region finds them. -/
private theorem node_a_in0 (t : Fin cfg0.N) : (iblk0 V c 0 t : Vec F S782x128 .f32) = V c main_v5 := by
  unfold Gen.iblk0; exact node_a_read0 (V c main_v5) t
private theorem node_a_in1 (t : Fin cfg0.N) : (iblk0 V c 1 t : Vec F S782x128 .f32) = V c main_v7 := by
  unfold Gen.iblk0; exact node_a_read1 (V c main_v7) t
private theorem node_a_in2 (t : Fin cfg0.N) : (iblk0 V c 2 t : Vec F S782x128 .f32) = V c main_v9 := by
  unfold Gen.iblk0; exact node_a_read2 (V c main_v9) t
private theorem node_a_in3 (t : Fin cfg0.N) : (iblk0 V c 3 t : Vec F S782x128 .f32) = V c main_v11 := by
  unfold Gen.iblk0; exact node_a_read3 (V c main_v11) t
private theorem node_a_in4 (t : Fin cfg0.N) : (iblk0 V c 4 t : Vec F S782x128 .f32) = V c main_v13 := by
  unfold Gen.iblk0; exact node_a_read4 (V c main_v13) t
private theorem node_a_in5 (t : Fin cfg0.N) : (iblk0 V c 5 t : Vec F S782x128 .f32) = V c main_v15 := by
  unfold Gen.iblk0; exact node_a_read5 (V c main_v15) t
private theorem node_a_in6 (t : Fin cfg0.N) : (iblk0 V c 6 t : Vec F S782x128 .f32) = V c main_v17 := by
  unfold Gen.iblk0; exact node_a_read6 (V c main_v17) t
private theorem node_a_in7 (t : Fin cfg0.N) : (iblk0 V c 7 t : Vec F S782x128 .f32) = V c main_v19 := by
  unfold Gen.iblk0; exact node_a_read7 (V c main_v19) t
private theorem node_a_in8 (t : Fin cfg0.N) : (iblk0 V c 8 t : Vec F S782x128 .f32) = V c main_v21 := by
  unfold Gen.iblk0; exact node_a_read8 (V c main_v21) t
private theorem node_a_in9 (t : Fin cfg0.N) : (iblk0 V c 9 t : Vec F S782x128 .f32) = V c main_v23 := by
  unfold Gen.iblk0; exact node_a_read9 (V c main_v23) t
private theorem node_a_in10 (t : Fin cfg0.N) : (iblk0 V c 10 t : Vec F S782x128 .f32) = V c main_v25 := by
  unfold Gen.iblk0; exact node_a_read10 (V c main_v25) t
private theorem node_a_in11 (t : Fin cfg0.N) : (iblk0 V c 11 t : Vec F S782x128 .f32) = V c main_v27 := by
  unfold Gen.iblk0; exact node_a_read11 (V c main_v27) t
private theorem node_a_in12 (t : Fin cfg0.N) : (iblk0 V c 12 t : Vec F S782x128 .f32) = V c main_v29 := by
  unfold Gen.iblk0; exact node_a_read12 (V c main_v29) t
private theorem node_a_in13 (t : Fin cfg0.N) : (iblk0 V c 13 t : Vec F S782x128 .f32) = V c main_v31 := by
  unfold Gen.iblk0; exact node_a_read13 (V c main_v31) t
private theorem node_a_in14 (t : Fin cfg0.N) : (iblk0 V c 14 t : Vec F S782x128 .f32) = V c main_v33 := by
  unfold Gen.iblk0; exact node_a_read14 (V c main_v33) t

/-- What the one grid point writes back to the activation array: the (whole-array) block of the logistic payload of the
    voltage, half-voltage and slope arrays. -/
private theorem node_a_flushed15 (t : Fin cfg0.N) :
    (dat0 V c).flushed 15 t
      = ((cfg0.win 15).blk t).view.read (Elt F) (k0_pay3 (V c main_v5) (V c main_v7) (V c main_v9)) := by
  show (cfg0.win 15).cut (grid0.coords t) ((dat0 V c).after 15 t) = _
  rw [after0_15]
  unfold Gen.out0_15
  rw [View.canon_unit_zero zero_offsets]
  simp only [View.ld_unit_zero (S := S782x128) zero_offsets]
  rw [node_a_in0, node_a_in1, node_a_in2]
  exact (node_a_read15 (k0_pay3 (V c main_v5) (V c main_v7) (V c main_v9)) t).symm

/-- The partial-current output's buffer after the body, when the thirteen blocks the body loads for it are known arrays
    `a0, a3, …, a14`: the body's payload of those arrays. -/
private theorem node_a_stored16 (x0 x1 x2 x3 x4 x5 x6 x7 x8 x9 x10 x11 x12 x13 x14 : Vec F S782x128 .f32)
    (a0 a3 a4 a5 a6 a7 a8 a9 a10 a11 a12 a13 a14 : Vec F S782x128 .f32)
    (h0 : x0 = a0) (h3 : x3 = a3) (h4 : x4 = a4) (h5 : x5 = a5) (h6 : x6 = a6) (h7 : x7 = a7) (h8 : x8 = a8)
    (h9 : x9 = a9) (h10 : x10 = a10) (h11 : x11 = a11) (h12 : x12 = a12) (h13 : x13 = a13) (h14 : x14 = a14) :
    out0_16 x0 x1 x2 x3 x4 x5 x6 x7 x8 x9 x10 x11 x12 x13 x14
      = k0_pay1 (k0_pay2 a0) (k0_pay4 a0 a6 a3 a4 a9) (k0_pay5 a0 a7 a5 a10) a8 a11 a12 a13 a14 := by
  subst h0 h3 h4 h5 h6 h7 h8 h9 h10 h11 h12 h13 h14
  unfold Gen.out0_16
  rw [View.canon_unit_zero zero_offsets]
  simp only [View.ld_unit_zero (S := S782x128) zero_offsets]

/-- What it writes back to the partial-current array: the block of the body's payload of thirteen of the arrays. -/
private theorem node_a_flushed16 (t : Fin cfg0.N) :
    (dat0 V c).flushed 16 t
      = ((cfg0.win 16).blk t).view.read (Elt F)
          (k0_pay1 (k0_pay2 (V c main_v5))
            (k0_pay4 (V c main_v5) (V c main_v17) (V c main_v11) (V c main_v13) (V c main_v23))
            (k0_pay5 (V c main_v5) (V c main_v19) (V c main_v15) (V c main_v25)) (V c main_v21) (V c main_v27)
            (V c main_v29) (V c main_v31) (V c main_v33)) := by
  show (cfg0.win 16).cut (grid0.coords t) ((dat0 V c).after 16 t) = _
  rw [after0_16]
  rw [node_a_stored16 (iblk0 V c 0 t) (iblk0 V c 1 t) (iblk0 V c 2 t) (iblk0 V c 3 t) (iblk0 V c 4 t) (iblk0 V c 5 t)
    (iblk0 V c 6 t) (iblk0 V c 7 t) (iblk0 V c 8 t) (iblk0 V c 9 t) (iblk0 V c 10 t) (iblk0 V c 11 t) (iblk0 V c 12 t)
    (iblk0 V c 13 t) (iblk0 V c 14 t) _ _ _ _ _ _ _ _ _ _ _ _ _
    (node_a_in0 V c t) (node_a_in3 V c t) (node_a_in4 V c t) (node_a_in5 V c t) (node_a_in6 V c t) (node_a_in7 V c t)
    (node_a_in8 V c t) (node_a_in9 V c t) (node_a_in10 V c t) (node_a_in11 V c t) (node_a_in12 V c t)
    (node_a_in13 V c t) (node_a_in14 V c t)]
  exact (node_a_read16 _ t).symm

/-- The one block of each output covers its whole 782 x 128 array. -/
private theorem node_a_cover15 (i : S782x128.Idx) :
    ∃ t : Fin cfg0.N, (cfg0.win 15).flush t = true ∧ i ∈ ((cfg0.win 15).blk t).view.set := by
  have hi0 : (i 0).val < 782 := (i 0).isLt
  have hi1 : (i 1).val < 128 := (i 1).isLt
  have e := (by decide +kernel : ∀ (t' : Fin grid0.N) (a' : Fin 2), win0_15.index t' a' = 0) t0_0
  have e0 : win0_15.index t0_0 (0 : Fin 2) = 0 := e 0
  have e1 : win0_15.index t0_0 (1 : Fin 2) = 0 := e 1
  refine ⟨t0_0, flush0_15 t0_0, ?_⟩
  show i ∈ ((View.whole main_v34_0).slice (win0_15.rect t0_0)).set
  rw [View.set_slice_whole, Rect.mem_set_unit]
  intro a
  match a with
  | ⟨0, _⟩ =>
    show win0_15.index t0_0 (0 : Fin 2) * 782 ≤ (i 0).val ∧ (i 0).val < win0_15.index t0_0 (0 : Fin 2) * 782 + 782
    omega
  | ⟨1, _⟩ =>
    show win0_15.index t0_0 (1 : Fin 2) * 128 ≤ (i 1).val ∧ (i 1).val < win0_15.index t0_0 (1 : Fin 2) * 128 + 128
    omega

private theorem node_a_cover16 (i : S782x128.Idx) :
    ∃ t : Fin cfg0.N, (cfg0.win 16).flush t = true ∧ i ∈ ((cfg0.win 16).blk t).view.set := by
  have hi0 : (i 0).val < 782 := (i 0).isLt
  have hi1 : (i 1).val < 128 := (i 1).isLt
  have e := (by decide +kernel : ∀ (t' : Fin grid0.N) (a' : Fin 2), win0_16.index t' a' = 0) t0_0
  have e0 : win0_16.index t0_0 (0 : Fin 2) = 0 := e 0
  have e1 : win0_16.index t0_0 (1 : Fin 2) = 0 := e 1
  refine ⟨t0_0, flush0_16 t0_0, ?_⟩
  show i ∈ ((View.whole main_v34_1).slice (win0_16.rect t0_0)).set
  rw [View.set_slice_whole, Rect.mem_set_unit]
  intro a
  match a with
  | ⟨0, _⟩ =>
    show win0_16.index t0_0 (0 : Fin 2) * 782 ≤ (i 0).val ∧ (i 0).val < win0_16.index t0_0 (0 : Fin 2) * 782 + 782
    omega
  | ⟨1, _⟩ =>
    show win0_16.index t0_0 (1 : Fin 2) * 128 ≤ (i 1).val ∧ (i 1).val < win0_16.index t0_0 (1 : Fin 2) * 128 + 128
    omega

/-! ## The four arrays -/

/-- Region 0, the activation array: the logistic payload of the voltage, half-voltage and slope arrays. -/
theorem arr0_15 : (dat0 V c).arrAt 15 cfg0.N = k0_pay3 (V c main_v5) (V c main_v7) (V c main_v9) :=
  (dat0 V c).arrAt_eq_of_cover 15 _ (fun t _ => node_a_flushed15 V c t) node_a_cover15

/-- Region 0, the partial-current array. -/
theorem arr0_16 : (dat0 V c).arrAt 16 cfg0.N
    = k0_pay1 (k0_pay2 (V c main_v5)) (k0_pay4 (V c main_v5) (V c main_v17) (V c main_v11) (V c main_v13) (V c main_v23))
        (k0_pay5 (V c main_v5) (V c main_v19) (V c main_v15) (V c main_v25)) (V c main_v21) (V c main_v27) (V c main_v29)
        (V c main_v31) (V c main_v33) :=
  (dat0 V c).arrAt_eq_of_cover 16 _ (fun t _ => node_a_flushed16 V c t) node_a_cover16

/-- Region 1, the edge-message array: the elementwise product of the two 50000 x 128 arrays, block by block. -/
theorem arr1_2 : (dat1 V c).arrAt 2 cfg1.N = mulf (V c main_v46 : FVec F S50000x128 .f32) (V c main_v47) :=
  (dat1 V c).arrAt_eq_of_cover 2 _ (fun t _ => edge_flushed V c t) edge_cover

/-- Region 2, the result array: the sum-and-quotient payload of its three arrays. -/
theorem arr2_3 : (dat2 V c).arrAt 3 cfg2.N = k2_pay1 (V c main_v54) (V c main_v56) (V c main_v58) :=
  (dat2 V c).arrAt_eq_of_cover 3 _ (fun t _ => node_b_flushed V c t) node_b_cover

end Cert.KernelIdeal.Region

end
-- ==== Proof.EntryFold.lean ====
/-
  The buffers as the first region finds them.

  Before the first region the host side lays each of fifteen node vectors out on 782 rows of 128 lanes (zero-filled),
  and takes the two rows of the edge list apart.  Read at the buffer it wrote, the fold of those host stretches gives
  each laid-out array as the layout of the launch contents of its argument; an argument's own buffer, which no
  stretch writes, still holds its launch contents.
-/
import proofs.«160053_j34677565948816_2_alg».proof.Proof.Gen.KernelIdeal.Frame
import proofs.«160053_j34677565948816_2_alg».proof.Proof.KernelTerm
import proofs.«160053_j34677565948816_2_alg».proof.Proof.LibTypedRef

set_option maxRecDepth 16384

noncomputable section

namespace Cert.KernelIdeal.Entry

open Cert.KernelIdeal Cert.KernelIdeal.Gen
open Idealize.ShloMosaic Idealize.ShloMosaic.TcCoe Idealize.SL.Sem
open Idealize.ShloMosaic.Pipeline (Dat Cfg Window)

variable {F : FTy → Type} [FloatOps F]

variable (m : (ℓ : Loc nD τ sig) → Buf (Elt F) ℓ) (ρ : Dev nD → PrngReg) (c : Dev nD)

/-! ## What each stretch leaves alone

A stretch writes only its operations' result buffers; any other buffer keeps its contents across it.  The stretches
before the first region are one opening stretch (the two rows of the edge list, and the first integer zero) and then,
fifteen times, a call that fills a node vector out to 100096 places followed by the stretch that lays the filled
vector out on 782 rows (and makes the next call's integer zero). -/

/-- Every operation of a literal stretch writes inside the listed references. -/
local macro "writes_in" : tactic =>
  `(tactic| (simp only [List.Forall, StableHlo.nullary_writes, StableHlo.unary_writes, StableHlo.binary_writes,
      StableHlo.reshape_writes, Finset.singleton_subset_iff, List.mem_toFinset]
             repeat' apply And.intro
             all_goals exact List.mem_map_of_mem (by decide)))

/-- The buffers the opening stretch writes. -/
private abbrev wr0 : List (Ref sig .tc) := [main_v0, main_v1, main_v2, main_v3, main_c]
/-- The buffers call 0 and the stretch after it write. -/
private abbrev wB0 : List (Ref sig .tc) := [main_call0_v0, main_v4] ++ [main_v5, main_c_0]
/-- The buffers call 1 and the stretch after it write. -/
private abbrev wB1 : List (Ref sig .tc) := [main_call1_v0, main_v6] ++ [main_v7, main_c_1]
/-- The buffers call 2 and the stretch after it write. -/
private abbrev wB2 : List (Ref sig .tc) := [main_call2_v0, main_v8] ++ [main_v9, main_c_2]
/-- The buffers call 3 and the stretch after it write. -/
private abbrev wB3 : List (Ref sig .tc) := [main_call3_v0, main_v10] ++ [main_v11, main_c_3]
/-- The buffers call 4 and the stretch after it write. -/
private abbrev wB4 : List (Ref sig .tc) := [main_call4_v0, main_v12] ++ [main_v13, main_c_4]
/-- The buffers call 5 and the stretch after it write. -/
private abbrev wB5 : List (Ref sig .tc) := [main_call5_v0, main_v14] ++ [main_v15, main_c_5]
/-- The buffers call 6 and the stretch after it write. -/
private abbrev wB6 : List (Ref sig .tc) := [main_call6_v0, main_v16] ++ [main_v17, main_c_6]
/-- The buffers call 7 and the stretch after it write. -/
private abbrev wB7 : List (Ref sig .tc) := [main_call7_v0, main_v18] ++ [main_v19, main_c_7]
/-- The buffers call 8 and the stretch after it write. -/
private abbrev wB8 : List (Ref sig .tc) := [main_call8_v0, main_v20] ++ [main_v21, main_c_8]
/-- The buffers call 9 and the stretch after it write. -/
private abbrev wB9 : List (Ref sig .tc) := [main_call9_v0, main_v22] ++ [main_v23, main_c_9]
/-- The buffers call 10 and the stretch after it write. -/
private abbrev wB10 : List (Ref sig .tc) := [main_call10_v0, main_v24] ++ [main_v25, main_c_10]
/-- The buffers call 11 and the stretch after it write. -/
private abbrev wB11 : List (Ref sig .tc) := [main_call11_v0, main_v26] ++ [main_v27, main_c_11]
/-- The buffers call 12 and the stretch after it write. -/
private abbrev wB12 : List (Ref sig .tc) := [main_call12_v0, main_v28] ++ [main_v29, main_c_12]
/-- The buffers call 13 and the stretch after it write. -/
private abbrev wB13 : List (Ref sig .tc) := [main_call13_v0, main_v30] ++ [main_v31, main_c_13]
/-- The buffers call 14 and the stretch after it write. -/
private abbrev wB14 : List (Ref sig .tc) := [main_call14_v0, main_v32] ++ [main_v33]

/-- Across the opening stretch. -/
private theorem keep0 (r : Ref sig .tc) (h : r ∉ wr0) :
    W1 m ρ c (Proc.devRef .tc r) = W0 m ρ c (Proc.devRef .tc r) :=
  StableHlo.after_of_writes_sub hostOps0 _ (by writes_in) h
/-- Across call 0 and the stretch after it. -/
private theorem keepB0 (r : Ref sig .tc) (h : r ∉ wB0) :
    W3 m ρ c (Proc.devRef .tc r) = W1 m ρ c (Proc.devRef .tc r) :=
  (StableHlo.after_of_writes_sub hostOps0_2 _ (by writes_in) fun hm => h (List.mem_append_right _ hm)).trans
    (StableHlo.after_of_writes_sub hostOps0_1 _ (by writes_in) fun hm => h (List.mem_append_left _ hm))
/-- Across call 1 and the stretch after it. -/
private theorem keepB1 (r : Ref sig .tc) (h : r ∉ wB1) :
    W5 m ρ c (Proc.devRef .tc r) = W3 m ρ c (Proc.devRef .tc r) :=
  (StableHlo.after_of_writes_sub hostOps0_4 _ (by writes_in) fun hm => h (List.mem_append_right _ hm)).trans
    (StableHlo.after_of_writes_sub hostOps0_3 _ (by writes_in) fun hm => h (List.mem_append_left _ hm))
/-- Across call 2 and the stretch after it. -/
private theorem keepB2 (r : Ref sig .tc) (h : r ∉ wB2) :
    W7 m ρ c (Proc.devRef .tc r) = W5 m ρ c (Proc.devRef .tc r) :=
  (StableHlo.after_of_writes_sub hostOps0_6 _ (by writes_in) fun hm => h (List.mem_append_right _ hm)).trans
    (StableHlo.after_of_writes_sub hostOps0_5 _ (by writes_in) fun hm => h (List.mem_append_left _ hm))
/-- Across call 3 and the stretch after it. -/
private theorem keepB3 (r : Ref sig .tc) (h : r ∉ wB3) :
    W9 m ρ c (Proc.devRef .tc r) = W7 m ρ c (Proc.devRef .tc r) :=
  (StableHlo.after_of_writes_sub hostOps0_8 _ (by writes_in) fun hm => h (List.mem_append_right _ hm)).trans
    (StableHlo.after_of_writes_sub hostOps0_7 _ (by writes_in) fun hm => h (List.mem_append_left _ hm))
/-- Across call 4 and the stretch after it. -/
private theorem keepB4 (r : Ref sig .tc) (h : r ∉ wB4) :
    W11 m ρ c (Proc.devRef .tc r) = W9 m ρ c (Proc.devRef .tc r) :=
  (StableHlo.after_of_writes_sub hostOps0_10 _ (by writes_in) fun hm => h (List.mem_append_right _ hm)).trans
    (StableHlo.after_of_writes_sub hostOps0_9 _ (by writes_in) fun hm => h (List.mem_append_left _ hm))
/-- Across call 5 and the stretch after it. -/
private theorem keepB5 (r : Ref sig .tc) (h : r ∉ wB5) :
    W13 m ρ c (Proc.devRef .tc r) = W11 m ρ c (Proc.devRef .tc r) :=
  (StableHlo.after_of_writes_sub hostOps0_12 _ (by writes_in) fun hm => h (List.mem_append_right _ hm)).trans
    (StableHlo.after_of_writes_sub hostOps0_11 _ (by writes_in) fun hm => h (List.mem_append_left _ hm))
/-- Across call 6 and the stretch after it. -/
private theorem keepB6 (r : Ref sig .tc) (h : r ∉ wB6) :
    W15 m ρ c (Proc.devRef .tc r) = W13 m ρ c (Proc.devRef .tc r) :=
  (StableHlo.after_of_writes_sub hostOps0_14 _ (by writes_in) fun hm => h (List.mem_append_right _ hm)).trans
    (StableHlo.after_of_writes_sub hostOps0_13 _ (by writes_in) fun hm => h (List.mem_append_left _ hm))
/-- Across call 7 and the stretch after it. -/
private theorem keepB7 (r : Ref sig .tc) (h : r ∉ wB7) :
    W17 m ρ c (Proc.devRef .tc r) = W15 m ρ c (Proc.devRef .tc r) :=
  (StableHlo.after_of_writes_sub hostOps0_16 _ (by writes_in) fun hm => h (List.mem_append_right _ hm)).trans
    (StableHlo.after_of_writes_sub hostOps0_15 _ (by writes_in) fun hm => h (List.mem_append_left _ hm))
/-- Across call 8 and the stretch after it. -/
private theorem keepB8 (r : Ref sig .tc) (h : r ∉ wB8) :
    W19 m ρ c (Proc.devRef .tc r) = W17 m ρ c (Proc.devRef .tc r) :=
  (StableHlo.after_of_writes_sub hostOps0_18 _ (by writes_in) fun hm => h (List.mem_append_right _ hm)).trans
    (StableHlo.after_of_writes_sub hostOps0_17 _ (by writes_in) fun hm => h (List.mem_append_left _ hm))
/-- Across call 9 and the stretch after it. -/
private theorem keepB9 (r : Ref sig .tc) (h : r ∉ wB9) :
    W21 m ρ c (Proc.devRef .tc r) = W19 m ρ c (Proc.devRef .tc r) :=
  (StableHlo.after_of_writes_sub hostOps0_20 _ (by writes_in) fun hm => h (List.mem_append_right _ hm)).trans
    (StableHlo.after_of_writes_sub hostOps0_19 _ (by writes_in) fun hm => h (List.mem_append_left _ hm))
/-- Across call 10 and the stretch after it. -/
private theorem keepB10 (r : Ref sig .tc) (h : r ∉ wB10) :
    W23 m ρ c (Proc.devRef .tc r) = W21 m ρ c (Proc.devRef .tc r) :=
  (StableHlo.after_of_writes_sub hostOps0_22 _ (by writes_in) fun hm => h (List.mem_append_right _ hm)).trans
    (StableHlo.after_of_writes_sub hostOps0_21 _ (by writes_in) fun hm => h (List.mem_append_left _ hm))
/-- Across call 11 and the stretch after it. -/
private theorem keepB11 (r : Ref sig .tc) (h : r ∉ wB11) :
    W25 m ρ c (Proc.devRef .tc r) = W23 m ρ c (Proc.devRef .tc r) :=
  (StableHlo.after_of_writes_sub hostOps0_24 _ (by writes_in) fun hm => h (List.mem_append_right _ hm)).trans
    (StableHlo.after_of_writes_sub hostOps0_23 _ (by writes_in) fun hm => h (List.mem_append_left _ hm))
/-- Across call 12 and the stretch after it. -/
private theorem keepB12 (r : Ref sig .tc) (h : r ∉ wB12) :
    W27 m ρ c (Proc.devRef .tc r) = W25 m ρ c (Proc.devRef .tc r) :=
  (StableHlo.after_of_writes_sub hostOps0_26 _ (by writes_in) fun hm => h (List.mem_append_right _ hm)).trans
    (StableHlo.after_of_writes_sub hostOps0_25 _ (by writes_in) fun hm => h (List.mem_append_left _ hm))
/-- Across call 13 and the stretch after it. -/
private theorem keepB13 (r : Ref sig .tc) (h : r ∉ wB13) :
    W29 m ρ c (Proc.devRef .tc r) = W27 m ρ c (Proc.devRef .tc r) :=
  (StableHlo.after_of_writes_sub hostOps0_28 _ (by writes_in) fun hm => h (List.mem_append_right _ hm)).trans
    (StableHlo.after_of_writes_sub hostOps0_27 _ (by writes_in) fun hm => h (List.mem_append_left _ hm))
/-- Across call 14 and the stretch after it. -/
private theorem keepB14 (r : Ref sig .tc) (h : r ∉ wB14) :
    W31 m ρ c (Proc.devRef .tc r) = W29 m ρ c (Proc.devRef .tc r) :=
  (StableHlo.after_of_writes_sub hostOps0_30 _ (by writes_in) fun hm => h (List.mem_append_right _ hm)).trans
    (StableHlo.after_of_writes_sub hostOps0_29 _ (by writes_in) fun hm => h (List.mem_append_left _ hm))

/-! Walking back from the first region's entry to the contents after call `k - 1`'s layout: no later stretch may write
    the buffer. -/

private abbrev post14 : List (Ref sig .tc) := wB14
private abbrev post13 : List (Ref sig .tc) := wB13 ++ post14
private abbrev post12 : List (Ref sig .tc) := wB12 ++ post13
private abbrev post11 : List (Ref sig .tc) := wB11 ++ post12
private abbrev post10 : List (Ref sig .tc) := wB10 ++ post11
private abbrev post9 : List (Ref sig .tc) := wB9 ++ post10
private abbrev post8 : List (Ref sig .tc) := wB8 ++ post9
private abbrev post7 : List (Ref sig .tc) := wB7 ++ post8
private abbrev post6 : List (Ref sig .tc) := wB6 ++ post7
private abbrev post5 : List (Ref sig .tc) := wB5 ++ post6
private abbrev post4 : List (Ref sig .tc) := wB4 ++ post5
private abbrev post3 : List (Ref sig .tc) := wB3 ++ post4
private abbrev post2 : List (Ref sig .tc) := wB2 ++ post3
private abbrev post1 : List (Ref sig .tc) := wB1 ++ post2
private abbrev post0 : List (Ref sig .tc) := wB0 ++ post1

private theorem down14 (r : Ref sig .tc) (h : r ∉ post14) :
    W31 m ρ c (Proc.devRef .tc r) = W29 m ρ c (Proc.devRef .tc r) := keepB14 m ρ c r h
private theorem down13 (r : Ref sig .tc) (h : r ∉ post13) :
    W31 m ρ c (Proc.devRef .tc r) = W27 m ρ c (Proc.devRef .tc r) :=
  (down14 m ρ c r fun hm => h (List.mem_append_right _ hm)).trans (keepB13 m ρ c r fun hm => h (List.mem_append_left _ hm))
private theorem down12 (r : Ref sig .tc) (h : r ∉ post12) :
    W31 m ρ c (Proc.devRef .tc r) = W25 m ρ c (Proc.devRef .tc r) :=
  (down13 m ρ c r fun hm => h (List.mem_append_right _ hm)).trans (keepB12 m ρ c r fun hm => h (List.mem_append_left _ hm))
private theorem down11 (r : Ref sig .tc) (h : r ∉ post11) :
    W31 m ρ c (Proc.devRef .tc r) = W23 m ρ c (Proc.devRef .tc r) :=
  (down12 m ρ c r fun hm => h (List.mem_append_right _ hm)).trans (keepB11 m ρ c r fun hm => h (List.mem_append_left _ hm))
private theorem down10 (r : Ref sig .tc) (h : r ∉ post10) :
    W31 m ρ c (Proc.devRef .tc r) = W21 m ρ c (Proc.devRef .tc r) :=
  (down11 m ρ c r fun hm => h (List.mem_append_right _ hm)).trans (keepB10 m ρ c r fun hm => h (List.mem_append_left _ hm))
private theorem down9 (r : Ref sig .tc) (h : r ∉ post9) :
    W31 m ρ c (Proc.devRef .tc r) = W19 m ρ c (Proc.devRef .tc r) :=
  (down10 m ρ c r fun hm => h (List.mem_append_right _ hm)).trans (keepB9 m ρ c r fun hm => h (List.mem_append_left _ hm))
private theorem down8 (r : Ref sig .tc) (h : r ∉ post8) :
    W31 m ρ c (Proc.devRef .tc r) = W17 m ρ c (Proc.devRef .tc r) :=
  (down9 m ρ c r fun hm => h (List.mem_append_right _ hm)).trans (keepB8 m ρ c r fun hm => h (List.mem_append_left _ hm))
private theorem down7 (r : Ref sig .tc) (h : r ∉ post7) :
    W31 m ρ c (Proc.devRef .tc r) = W15 m ρ c (Proc.devRef .tc r) :=
  (down8 m ρ c r fun hm => h (List.mem_append_right _ hm)).trans (keepB7 m ρ c r fun hm => h (List.mem_append_left _ hm))
private theorem down6 (r : Ref sig .tc) (h : r ∉ post6) :
    W31 m ρ c (Proc.devRef .tc r) = W13 m ρ c (Proc.devRef .tc r) :=
  (down7 m ρ c r fun hm => h (List.mem_append_right _ hm)).trans (keepB6 m ρ c r fun hm => h (List.mem_append_left _ hm))
private theorem down5 (r : Ref sig .tc) (h : r ∉ post5) :
    W31 m ρ c (Proc.devRef .tc r) = W11 m ρ c (Proc.devRef .tc r) :=
  (down6 m ρ c r fun hm => h (List.mem_append_right _ hm)).trans (keepB5 m ρ c r fun hm => h (List.mem_append_left _ hm))
private theorem down4 (r : Ref sig .tc) (h : r ∉ post4) :
    W31 m ρ c (Proc.devRef .tc r) = W9 m ρ c (Proc.devRef .tc r) :=
  (down5 m ρ c r fun hm => h (List.mem_append_right _ hm)).trans (keepB4 m ρ c r fun hm => h (List.mem_append_left _ hm))
private theorem down3 (r : Ref sig .tc) (h : r ∉ post3) :
    W31 m ρ c (Proc.devRef .tc r) = W7 m ρ c (Proc.devRef .tc r) :=
  (down4 m ρ c r fun hm => h (List.mem_append_right _ hm)).trans (keepB3 m ρ c r fun hm => h (List.mem_append_left _ hm))
private theorem down2 (r : Ref sig .tc) (h : r ∉ post2) :
    W31 m ρ c (Proc.devRef .tc r) = W5 m ρ c (Proc.devRef .tc r) :=
  (down3 m ρ c r fun hm => h (List.mem_append_right _ hm)).trans (keepB2 m ρ c r fun hm => h (List.mem_append_left _ hm))
private theorem down1 (r : Ref sig .tc) (h : r ∉ post1) :
    W31 m ρ c (Proc.devRef .tc r) = W3 m ρ c (Proc.devRef .tc r) :=
  (down2 m ρ c r fun hm => h (List.mem_append_right _ hm)).trans (keepB1 m ρ c r fun hm => h (List.mem_append_left _ hm))
private theorem down0 (r : Ref sig .tc) (h : r ∉ post0) :
    W31 m ρ c (Proc.devRef .tc r) = W1 m ρ c (Proc.devRef .tc r) :=
  (down1 m ρ c r fun hm => h (List.mem_append_right _ hm)).trans (keepB0 m ρ c r fun hm => h (List.mem_append_left _ hm))

/-! Walking back from the contents before call `k` to the launch contents: no earlier stretch may write the buffer. -/

private abbrev pre0 : List (Ref sig .tc) := wr0
private abbrev pre1 : List (Ref sig .tc) := wB0 ++ pre0
private abbrev pre2 : List (Ref sig .tc) := wB1 ++ pre1
private abbrev pre3 : List (Ref sig .tc) := wB2 ++ pre2
private abbrev pre4 : List (Ref sig .tc) := wB3 ++ pre3
private abbrev pre5 : List (Ref sig .tc) := wB4 ++ pre4
private abbrev pre6 : List (Ref sig .tc) := wB5 ++ pre5
private abbrev pre7 : List (Ref sig .tc) := wB6 ++ pre6
private abbrev pre8 : List (Ref sig .tc) := wB7 ++ pre7
private abbrev pre9 : List (Ref sig .tc) := wB8 ++ pre8
private abbrev pre10 : List (Ref sig .tc) := wB9 ++ pre9
private abbrev pre11 : List (Ref sig .tc) := wB10 ++ pre10
private abbrev pre12 : List (Ref sig .tc) := wB11 ++ pre11
private abbrev pre13 : List (Ref sig .tc) := wB12 ++ pre12
private abbrev pre14 : List (Ref sig .tc) := wB13 ++ pre13
private abbrev pre15 : List (Ref sig .tc) := wB14 ++ pre14

/-- The launch contents of a buffer are the launch memory's. -/
private theorem launch_eq (r : Ref sig .tc) : W0 m ρ c (Proc.devRef .tc r) = m ((c : Thread nD τ).loc r) := rfl

private theorem low0 (r : Ref sig .tc) (h : r ∉ pre0) :
    W1 m ρ c (Proc.devRef .tc r) = m ((c : Thread nD τ).loc r) := keep0 m ρ c r h
private theorem low1 (r : Ref sig .tc) (h : r ∉ pre1) :
    W3 m ρ c (Proc.devRef .tc r) = m ((c : Thread nD τ).loc r) :=
  (keepB0 m ρ c r fun hm => h (List.mem_append_left _ hm)).trans (low0 m ρ c r fun hm => h (List.mem_append_right _ hm))
private theorem low2 (r : Ref sig .tc) (h : r ∉ pre2) :
    W5 m ρ c (Proc.devRef .tc r) = m ((c : Thread nD τ).loc r) :=
  (keepB1 m ρ c r fun hm => h (List.mem_append_left _ hm)).trans (low1 m ρ c r fun hm => h (List.mem_append_right _ hm))
private theorem low3 (r : Ref sig .tc) (h : r ∉ pre3) :
    W7 m ρ c (Proc.devRef .tc r) = m ((c : Thread nD τ).loc r) :=
  (keepB2 m ρ c r fun hm => h (List.mem_append_left _ hm)).trans (low2 m ρ c r fun hm => h (List.mem_append_right _ hm))
private theorem low4 (r : Ref sig .tc) (h : r ∉ pre4) :
    W9 m ρ c (Proc.devRef .tc r) = m ((c : Thread nD τ).loc r) :=
  (keepB3 m ρ c r fun hm => h (List.mem_append_left _ hm)).trans (low3 m ρ c r fun hm => h (List.mem_append_right _ hm))
private theorem low5 (r : Ref sig .tc) (h : r ∉ pre5) :
    W11 m ρ c (Proc.devRef .tc r) = m ((c : Thread nD τ).loc r) :=
  (keepB4 m ρ c r fun hm => h (List.mem_append_left _ hm)).trans (low4 m ρ c r fun hm => h (List.mem_append_right _ hm))
private theorem low6 (r : Ref sig .tc) (h : r ∉ pre6) :
    W13 m ρ c (Proc.devRef .tc r) = m ((c : Thread nD τ).loc r) :=
  (keepB5 m ρ c r fun hm => h (List.mem_append_left _ hm)).trans (low5 m ρ c r fun hm => h (List.mem_append_right _ hm))
private theorem low7 (r : Ref sig .tc) (h : r ∉ pre7) :
    W15 m ρ c (Proc.devRef .tc r) = m ((c : Thread nD τ).loc r) :=
  (keepB6 m ρ c r fun hm => h (List.mem_append_left _ hm)).trans (low6 m ρ c r fun hm => h (List.mem_append_right _ hm))
private theorem low8 (r : Ref sig .tc) (h : r ∉ pre8) :
    W17 m ρ c (Proc.devRef .tc r) = m ((c : Thread nD τ).loc r) :=
  (keepB7 m ρ c r fun hm => h (List.mem_append_left _ hm)).trans (low7 m ρ c r fun hm => h (List.mem_append_right _ hm))
private theorem low9 (r : Ref sig .tc) (h : r ∉ pre9) :
    W19 m ρ c (Proc.devRef .tc r) = m ((c : Thread nD τ).loc r) :=
  (keepB8 m ρ c r fun hm => h (List.mem_append_left _ hm)).trans (low8 m ρ c r fun hm => h (List.mem_append_right _ hm))
private theorem low10 (r : Ref sig .tc) (h : r ∉ pre10) :
    W21 m ρ c (Proc.devRef .tc r) = m ((c : Thread nD τ).loc r) :=
  (keepB9 m ρ c r fun hm => h (List.mem_append_left _ hm)).trans (low9 m ρ c r fun hm => h (List.mem_append_right _ hm))
private theorem low11 (r : Ref sig .tc) (h : r ∉ pre11) :
    W23 m ρ c (Proc.devRef .tc r) = m ((c : Thread nD τ).loc r) :=
  (keepB10 m ρ c r fun hm => h (List.mem_append_left _ hm)).trans (low10 m ρ c r fun hm => h (List.mem_append_right _ hm))
private theorem low12 (r : Ref sig .tc) (h : r ∉ pre12) :
    W25 m ρ c (Proc.devRef .tc r) = m ((c : Thread nD τ).loc r) :=
  (keepB11 m ρ c r fun hm => h (List.mem_append_left _ hm)).trans (low11 m ρ c r fun hm => h (List.mem_append_right _ hm))
private theorem low13 (r : Ref sig .tc) (h : r ∉ pre13) :
    W27 m ρ c (Proc.devRef .tc r) = m ((c : Thread nD τ).loc r) :=
  (keepB12 m ρ c r fun hm => h (List.mem_append_left _ hm)).trans (low12 m ρ c r fun hm => h (List.mem_append_right _ hm))
private theorem low14 (r : Ref sig .tc) (h : r ∉ pre14) :
    W29 m ρ c (Proc.devRef .tc r) = m ((c : Thread nD τ).loc r) :=
  (keepB13 m ρ c r fun hm => h (List.mem_append_left _ hm)).trans (low13 m ρ c r fun hm => h (List.mem_append_right _ hm))
private theorem low15 (r : Ref sig .tc) (h : r ∉ pre15) :
    W31 m ρ c (Proc.devRef .tc r) = m ((c : Thread nD τ).loc r) :=
  (keepB14 m ρ c r fun hm => h (List.mem_append_left _ hm)).trans (low14 m ρ c r fun hm => h (List.mem_append_right _ hm))

/-! ## The stretches that write

Read at a buffer it writes, a stretch gives its operation's function applied to the contents it started from. -/

/-- The opening stretch: the edge list's two rows, each as a vector, and the integer zero. -/
private theorem opening (V : Valuation τ sig (Elt F)) :
    StableHlo.after hostOps0 V (Proc.devRef .tc main_v1) = Term.srcIdx (V (Proc.devRef .tc main_arg17))
    ∧ StableHlo.after hostOps0 V (Proc.devRef .tc main_v3) = Term.dstIdx (V (Proc.devRef .tc main_arg17))
    ∧ StableHlo.after hostOps0 V (Proc.devRef .tc main_c) = constantI S_ 32 0#32 := by
  refine ⟨?_, ?_, ?_⟩ <;> dsimp only [hostOps0] <;> after_results_simp <;> rfl

/-- A stretch that ends by making a constant leaves that constant in its buffer. -/
private theorem ends_with {x y cn : Ref sig .tc} (he : x.ty.elt = y.ty.elt) (hn : x.ty.shape.ShapeCasts y.ty.shape)
    (hx : x.space ≠ .host ∧ (x : DevRef τ sig).isScoped = false) (hy : y.space ≠ .host ∧ (y : DevRef τ sig).isScoped = false)
    (v : cn.ty.Contents (Elt F)) (hcn : cn.space ≠ .host ∧ (cn : DevRef τ sig).isScoped = false)
    (V : Valuation τ sig (Elt F)) :
    StableHlo.after [StableHlo.reshape x y he hn hx hy, StableHlo.nullary cn v hcn] V (Proc.devRef .tc cn) = v := by
  rw [StableHlo.after_cons, StableHlo.after_cons, StableHlo.after_nil, StableHlo.nullary_result]

/-- One call and the stretch after it, read at the laid-out buffer `y5`: the call converts the integer zero in `z`
    (`f`, into `t`) and combines it with the argument `a` (`g`, into `y4`); the next stretch re-lays `y4` out into `y5`
    and makes a constant in another buffer. -/
private theorem window {z t a y4 y5 cn : Ref sig .tc}
    (f : z.ty.Contents (Elt F) → t.ty.Contents (Elt F))
    (g : a.ty.Contents (Elt F) → t.ty.Contents (Elt F) → y4.ty.Contents (Elt F))
    (hz : z.space ≠ .host ∧ (z : DevRef τ sig).isScoped = false) (ht : t.space ≠ .host ∧ (t : DevRef τ sig).isScoped = false)
    (ha : a.space ≠ .host ∧ (a : DevRef τ sig).isScoped = false) (h4 : y4.space ≠ .host ∧ (y4 : DevRef τ sig).isScoped = false)
    (he : y4.ty.elt = y5.ty.elt) (hn : y4.ty.shape.ShapeCasts y5.ty.shape)
    (h4' : y4.space ≠ .host ∧ (y4 : DevRef τ sig).isScoped = false) (h5 : y5.space ≠ .host ∧ (y5 : DevRef τ sig).isScoped = false)
    (v : cn.ty.Contents (Elt F)) (hcn : cn.space ≠ .host ∧ (cn : DevRef τ sig).isScoped = false)
    (V : Valuation τ sig (Elt F)) (hat : a ≠ t) (h5c : y5 ≠ cn) :
    StableHlo.after [StableHlo.reshape y4 y5 he hn h4' h5, StableHlo.nullary cn v hcn]
        (StableHlo.after [StableHlo.unary z t f hz ht, StableHlo.binary a t y4 g ha ht h4] V) (Proc.devRef .tc y5)
      = fun i => he ▸ shapeCast y5.ty.shape (g (V (Proc.devRef .tc a)) (f (V (Proc.devRef .tc z)))) hn i := by
  rw [StableHlo.after_cons, StableHlo.after_cons, StableHlo.after_nil, StableHlo.after_cons, StableHlo.after_cons,
    StableHlo.after_nil, StableHlo.nullary_result_ne (h := h5c), StableHlo.reshape_result, StableHlo.binary_result,
    StableHlo.unary_result, StableHlo.unary_result_ne (h := hat)]

/-- The last call and the stretch after it, which only re-lays the filled vector out. -/
private theorem window_last {z t a y4 y5 : Ref sig .tc}
    (f : z.ty.Contents (Elt F) → t.ty.Contents (Elt F))
    (g : a.ty.Contents (Elt F) → t.ty.Contents (Elt F) → y4.ty.Contents (Elt F))
    (hz : z.space ≠ .host ∧ (z : DevRef τ sig).isScoped = false) (ht : t.space ≠ .host ∧ (t : DevRef τ sig).isScoped = false)
    (ha : a.space ≠ .host ∧ (a : DevRef τ sig).isScoped = false) (h4 : y4.space ≠ .host ∧ (y4 : DevRef τ sig).isScoped = false)
    (he : y4.ty.elt = y5.ty.elt) (hn : y4.ty.shape.ShapeCasts y5.ty.shape)
    (h4' : y4.space ≠ .host ∧ (y4 : DevRef τ sig).isScoped = false) (h5 : y5.space ≠ .host ∧ (y5 : DevRef τ sig).isScoped = false)
    (V : Valuation τ sig (Elt F)) (hat : a ≠ t) :
    StableHlo.after [StableHlo.reshape y4 y5 he hn h4' h5]
        (StableHlo.after [StableHlo.unary z t f hz ht, StableHlo.binary a t y4 g ha ht h4] V) (Proc.devRef .tc y5)
      = fun i => he ▸ shapeCast y5.ty.shape (g (V (Proc.devRef .tc a)) (f (V (Proc.devRef .tc z)))) hn i := by
  rw [StableHlo.after_cons, StableHlo.after_nil, StableHlo.after_cons, StableHlo.after_cons,
    StableHlo.after_nil, StableHlo.reshape_result, StableHlo.binary_result,
    StableHlo.unary_result, StableHlo.unary_result_ne (h := hat)]

/-- The integer zero the first call reads. -/
private theorem zero0 : W1 m ρ c (Proc.devRef .tc main_c) = constantI S_ 32 0#32 := (opening (W0 m ρ c)).2.2
/-- The integer zero call 1 reads. -/
private theorem zero1 : W3 m ρ c (Proc.devRef .tc main_c_0) = constantI S_ 32 0#32 :=
  ends_with (x := main_v4) (y := main_v5) (cn := main_c_0) rfl shapeCasts_S100096_S782x128 _ _ _ _ (W2 m ρ c)
/-- The integer zero call 2 reads. -/
private theorem zero2 : W5 m ρ c (Proc.devRef .tc main_c_1) = constantI S_ 32 0#32 :=
  ends_with (x := main_v6) (y := main_v7) (cn := main_c_1) rfl shapeCasts_S100096_S782x128 _ _ _ _ (W4 m ρ c)
/-- The integer zero call 3 reads. -/
private theorem zero3 : W7 m ρ c (Proc.devRef .tc main_c_2) = constantI S_ 32 0#32 :=
  ends_with (x := main_v8) (y := main_v9) (cn := main_c_2) rfl shapeCasts_S100096_S782x128 _ _ _ _ (W6 m ρ c)
/-- The integer zero call 4 reads. -/
private theorem zero4 : W9 m ρ c (Proc.devRef .tc main_c_3) = constantI S_ 32 0#32 :=
  ends_with (x := main_v10) (y := main_v11) (cn := main_c_3) rfl shapeCasts_S100096_S782x128 _ _ _ _ (W8 m ρ c)
/-- The integer zero call 5 reads. -/
private theorem zero5 : W11 m ρ c (Proc.devRef .tc main_c_4) = constantI S_ 32 0#32 :=
  ends_with (x := main_v12) (y := main_v13) (cn := main_c_4) rfl shapeCasts_S100096_S782x128 _ _ _ _ (W10 m ρ c)
/-- The integer zero call 6 reads. -/
private theorem zero6 : W13 m ρ c (Proc.devRef .tc main_c_5) = constantI S_ 32 0#32 :=
  ends_with (x := main_v14) (y := main_v15) (cn := main_c_5) rfl shapeCasts_S100096_S782x128 _ _ _ _ (W12 m ρ c)
/-- The integer zero call 7 reads. -/
private theorem zero7 : W15 m ρ c (Proc.devRef .tc main_c_6) = constantI S_ 32 0#32 :=
  ends_with (x := main_v16) (y := main_v17) (cn := main_c_6) rfl shapeCasts_S100096_S782x128 _ _ _ _ (W14 m ρ c)
/-- The integer zero call 8 reads. -/
private theorem zero8 : W17 m ρ c (Proc.devRef .tc main_c_7) = constantI S_ 32 0#32 :=
  ends_with (x := main_v18) (y := main_v19) (cn := main_c_7) rfl shapeCasts_S100096_S782x128 _ _ _ _ (W16 m ρ c)
/-- The integer zero call 9 reads. -/
private theorem zero9 : W19 m ρ c (Proc.devRef .tc main_c_8) = constantI S_ 32 0#32 :=
  ends_with (x := main_v20) (y := main_v21) (cn := main_c_8) rfl shapeCasts_S100096_S782x128 _ _ _ _ (W18 m ρ c)
/-- The integer zero call 10 reads. -/
private theorem zero10 : W21 m ρ c (Proc.devRef .tc main_c_9) = constantI S_ 32 0#32 :=
  ends_with (x := main_v22) (y := main_v23) (cn := main_c_9) rfl shapeCasts_S100096_S782x128 _ _ _ _ (W20 m ρ c)
/-- The integer zero call 11 reads. -/
private theorem zero11 : W23 m ρ c (Proc.devRef .tc main_c_10) = constantI S_ 32 0#32 :=
  ends_with (x := main_v24) (y := main_v25) (cn := main_c_10) rfl shapeCasts_S100096_S782x128 _ _ _ _ (W22 m ρ c)
/-- The integer zero call 12 reads. -/
private theorem zero12 : W25 m ρ c (Proc.devRef .tc main_c_11) = constantI S_ 32 0#32 :=
  ends_with (x := main_v26) (y := main_v27) (cn := main_c_11) rfl shapeCasts_S100096_S782x128 _ _ _ _ (W24 m ρ c)
/-- The integer zero call 13 reads. -/
private theorem zero13 : W27 m ρ c (Proc.devRef .tc main_c_12) = constantI S_ 32 0#32 :=
  ends_with (x := main_v28) (y := main_v29) (cn := main_c_12) rfl shapeCasts_S100096_S782x128 _ _ _ _ (W26 m ρ c)
/-- The integer zero call 14 reads. -/
private theorem zero14 : W29 m ρ c (Proc.devRef .tc main_c_13) = constantI S_ 32 0#32 :=
  ends_with (x := main_v30) (y := main_v31) (cn := main_c_13) rfl shapeCasts_S100096_S782x128 _ _ _ _ (W28 m ρ c)

/-! ## The nineteen reads

A laid-out node vector: no stretch after its own window writes it; its window gives the layout of the filled vector;
the argument it fills still holds its launch contents there, and the filling value is the converted integer zero. -/

theorem w31_v5 : W31 m ρ c (Proc.devRef .tc main_v5) = Term.padR (m ((c : Thread nD τ).loc main_arg0)) := by
  rw [down1 m ρ c main_v5 (by decide)]
  refine (window (z := main_c) (t := main_call0_v0) (a := main_arg0) (y4 := main_v4) (y5 := main_v5) (cn := main_c_0)
    _ _ _ _ _ _ rfl shapeCasts_S100096_S782x128 _ _ _ _ (W1 m ρ c) (by decide) (by decide)).trans ?_
  rw [low0 m ρ c main_arg0 (by decide), zero0 m ρ c]
  rfl
theorem w31_v7 : W31 m ρ c (Proc.devRef .tc main_v7) = Term.padR (m ((c : Thread nD τ).loc main_arg6)) := by
  rw [down2 m ρ c main_v7 (by decide)]
  refine (window (z := main_c_0) (t := main_call1_v0) (a := main_arg6) (y4 := main_v6) (y5 := main_v7) (cn := main_c_1)
    _ _ _ _ _ _ rfl shapeCasts_S100096_S782x128 _ _ _ _ (W3 m ρ c) (by decide) (by decide)).trans ?_
  rw [low1 m ρ c main_arg6 (by decide), zero1 m ρ c]
  rfl
theorem w31_v9 : W31 m ρ c (Proc.devRef .tc main_v9) = Term.padR (m ((c : Thread nD τ).loc main_arg7)) := by
  rw [down3 m ρ c main_v9 (by decide)]
  refine (window (z := main_c_1) (t := main_call2_v0) (a := main_arg7) (y4 := main_v8) (y5 := main_v9) (cn := main_c_2)
    _ _ _ _ _ _ rfl shapeCasts_S100096_S782x128 _ _ _ _ (W5 m ρ c) (by decide) (by decide)).trans ?_
  rw [low2 m ρ c main_arg7 (by decide), zero2 m ρ c]
  rfl
theorem w31_v11 : W31 m ρ c (Proc.devRef .tc main_v11) = Term.padR (m ((c : Thread nD τ).loc main_arg2)) := by
  rw [down4 m ρ c main_v11 (by decide)]
  refine (window (z := main_c_2) (t := main_call3_v0) (a := main_arg2) (y4 := main_v10) (y5 := main_v11) (cn := main_c_3)
    _ _ _ _ _ _ rfl shapeCasts_S100096_S782x128 _ _ _ _ (W7 m ρ c) (by decide) (by decide)).trans ?_
  rw [low3 m ρ c main_arg2 (by decide), zero3 m ρ c]
  rfl
theorem w31_v13 : W31 m ρ c (Proc.devRef .tc main_v13) = Term.padR (m ((c : Thread nD τ).loc main_arg3)) := by
  rw [down5 m ρ c main_v13 (by decide)]
  refine (window (z := main_c_3) (t := main_call4_v0) (a := main_arg3) (y4 := main_v12) (y5 := main_v13) (cn := main_c_4)
    _ _ _ _ _ _ rfl shapeCasts_S100096_S782x128 _ _ _ _ (W9 m ρ c) (by decide) (by decide)).trans ?_
  rw [low4 m ρ c main_arg3 (by decide), zero4 m ρ c]
  rfl
theorem w31_v15 : W31 m ρ c (Proc.devRef .tc main_v15) = Term.padR (m ((c : Thread nD τ).loc main_arg4)) := by
  rw [down6 m ρ c main_v15 (by decide)]
  refine (window (z := main_c_4) (t := main_call5_v0) (a := main_arg4) (y4 := main_v14) (y5 := main_v15) (cn := main_c_5)
    _ _ _ _ _ _ rfl shapeCasts_S100096_S782x128 _ _ _ _ (W11 m ρ c) (by decide) (by decide)).trans ?_
  rw [low5 m ρ c main_arg4 (by decide), zero5 m ρ c]
  rfl
theorem w31_v17 : W31 m ρ c (Proc.devRef .tc main_v17) = Term.padR (m ((c : Thread nD τ).loc main_arg8)) := by
  rw [down7 m ρ c main_v17 (by decide)]
  refine (window (z := main_c_5) (t := main_call6_v0) (a := main_arg8) (y4 := main_v16) (y5 := main_v17) (cn := main_c_6)
    _ _ _ _ _ _ rfl shapeCasts_S100096_S782x128 _ _ _ _ (W13 m ρ c) (by decide) (by decide)).trans ?_
  rw [low6 m ρ c main_arg8 (by decide), zero6 m ρ c]
  rfl
theorem w31_v19 : W31 m ρ c (Proc.devRef .tc main_v19) = Term.padR (m ((c : Thread nD τ).loc main_arg9)) := by
  rw [down8 m ρ c main_v19 (by decide)]
  refine (window (z := main_c_6) (t := main_call7_v0) (a := main_arg9) (y4 := main_v18) (y5 := main_v19) (cn := main_c_7)
    _ _ _ _ _ _ rfl shapeCasts_S100096_S782x128 _ _ _ _ (W15 m ρ c) (by decide) (by decide)).trans ?_
  rw [low7 m ρ c main_arg9 (by decide), zero7 m ρ c]
  rfl
theorem w31_v21 : W31 m ρ c (Proc.devRef .tc main_v21) = Term.padR (m ((c : Thread nD τ).loc main_arg10)) := by
  rw [down9 m ρ c main_v21 (by decide)]
  refine (window (z := main_c_7) (t := main_call8_v0) (a := main_arg10) (y4 := main_v20) (y5 := main_v21) (cn := main_c_8)
    _ _ _ _ _ _ rfl shapeCasts_S100096_S782x128 _ _ _ _ (W17 m ρ c) (by decide) (by decide)).trans ?_
  rw [low8 m ρ c main_arg10 (by decide), zero8 m ρ c]
  rfl
theorem w31_v23 : W31 m ρ c (Proc.devRef .tc main_v23) = Term.padR (m ((c : Thread nD τ).loc main_arg11)) := by
  rw [down10 m ρ c main_v23 (by decide)]
  refine (window (z := main_c_8) (t := main_call9_v0) (a := main_arg11) (y4 := main_v22) (y5 := main_v23) (cn := main_c_9)
    _ _ _ _ _ _ rfl shapeCasts_S100096_S782x128 _ _ _ _ (W19 m ρ c) (by decide) (by decide)).trans ?_
  rw [low9 m ρ c main_arg11 (by decide), zero9 m ρ c]
  rfl
theorem w31_v25 : W31 m ρ c (Proc.devRef .tc main_v25) = Term.padR (m ((c : Thread nD τ).loc main_arg12)) := by
  rw [down11 m ρ c main_v25 (by decide)]
  refine (window (z := main_c_9) (t := main_call10_v0) (a := main_arg12) (y4 := main_v24) (y5 := main_v25) (cn := main_c_10)
    _ _ _ _ _ _ rfl shapeCasts_S100096_S782x128 _ _ _ _ (W21 m ρ c) (by decide) (by decide)).trans ?_
  rw [low10 m ρ c main_arg12 (by decide), zero10 m ρ c]
  rfl
theorem w31_v27 : W31 m ρ c (Proc.devRef .tc main_v27) = Term.padR (m ((c : Thread nD τ).loc main_arg13)) := by
  rw [down12 m ρ c main_v27 (by decide)]
  refine (window (z := main_c_10) (t := main_call11_v0) (a := main_arg13) (y4 := main_v26) (y5 := main_v27) (cn := main_c_11)
    _ _ _ _ _ _ rfl shapeCasts_S100096_S782x128 _ _ _ _ (W23 m ρ c) (by decide) (by decide)).trans ?_
  rw [low11 m ρ c main_arg13 (by decide), zero11 m ρ c]
  rfl
theorem w31_v29 : W31 m ρ c (Proc.devRef .tc main_v29) = Term.padR (m ((c : Thread nD τ).loc main_arg15)) := by
  rw [down13 m ρ c main_v29 (by decide)]
  refine (window (z := main_c_11) (t := main_call12_v0) (a := main_arg15) (y4 := main_v28) (y5 := main_v29) (cn := main_c_12)
    _ _ _ _ _ _ rfl shapeCasts_S100096_S782x128 _ _ _ _ (W25 m ρ c) (by decide) (by decide)).trans ?_
  rw [low12 m ρ c main_arg15 (by decide), zero12 m ρ c]
  rfl
theorem w31_v31 : W31 m ρ c (Proc.devRef .tc main_v31) = Term.padR (m ((c : Thread nD τ).loc main_arg16)) := by
  rw [down14 m ρ c main_v31 (by decide)]
  refine (window (z := main_c_12) (t := main_call13_v0) (a := main_arg16) (y4 := main_v30) (y5 := main_v31) (cn := main_c_13)
    _ _ _ _ _ _ rfl shapeCasts_S100096_S782x128 _ _ _ _ (W27 m ρ c) (by decide) (by decide)).trans ?_
  rw [low13 m ρ c main_arg16 (by decide), zero13 m ρ c]
  rfl
theorem w31_v33 : W31 m ρ c (Proc.devRef .tc main_v33) = Term.padR (m ((c : Thread nD τ).loc main_arg1)) := by
  refine (window_last (z := main_c_13) (t := main_call14_v0) (a := main_arg1) (y4 := main_v32) (y5 := main_v33)
    _ _ _ _ _ _ rfl shapeCasts_S100096_S782x128 _ _ (W29 m ρ c) (by decide)).trans ?_
  rw [low14 m ρ c main_arg1 (by decide), zero14 m ρ c]
  rfl

/-- The edges' source nodes. -/
theorem w31_v1 : W31 m ρ c (Proc.devRef .tc main_v1) = Term.srcIdx (m ((c : Thread nD τ).loc main_arg17)) :=
  (down0 m ρ c main_v1 (by decide)).trans (opening (W0 m ρ c)).1

/-- The edges' destination nodes. -/
theorem w31_v3 : W31 m ρ c (Proc.devRef .tc main_v3) = Term.dstIdx (m ((c : Thread nD τ).loc main_arg17)) :=
  (down0 m ρ c main_v3 (by decide)).trans (opening (W0 m ρ c)).2.1

/-- The edge weights' buffer is untouched. -/
theorem w31_arg5 : W31 m ρ c (Proc.devRef .tc main_arg5) = m ((c : Thread nD τ).loc main_arg5) :=
  low15 m ρ c main_arg5 (by decide)

/-- The capacitances' buffer is untouched. -/
theorem w31_arg14 : W31 m ρ c (Proc.devRef .tc main_arg14) = m ((c : Thread nD τ).loc main_arg14) :=
  low15 m ρ c main_arg14 (by decide)

end Cert.KernelIdeal.Entry

end
-- ==== Proof.ResultFold.lean ====
/-
  The result buffer after the whole program, as the composition of its operations on the launch contents.

  From the first region's entry contents on: the first region leaves the activation and the partial current; the host
  side reads them back to node vectors, gathers the activation at the edges' sources and lays it and the weights out on
  50000 rows; the second region multiplies; the host side sums the products into the destinations and lays the two
  currents and the capacitances out on 782 rows; the third region combines them; the host side reads the result back
  and makes it a column.
-/
import proofs.«160053_j34677565948816_2_alg».proof.Proof.Gen.KernelIdeal.Frame
import proofs.«160053_j34677565948816_2_alg».proof.Proof.KernelTerm
import proofs.«160053_j34677565948816_2_alg».proof.Proof.LibTypedRef
import proofs.«160053_j34677565948816_2_alg».proof.Proof.RegionArrays
import proofs.«160053_j34677565948816_2_alg».proof.Proof.EntryFold

set_option maxRecDepth 16384

noncomputable section

namespace Cert.KernelIdeal.Fold

open Cert.KernelIdeal Cert.KernelIdeal.Gen
open Idealize.ShloMosaic Idealize.ShloMosaic.TcCoe Idealize.SL.Sem
open Idealize.ShloMosaic.Pipeline (Dat Cfg Window)

variable {F : FTy → Type} [FloatOps F]

/-! ## The host stretches, over any contents they start from

Each lemma reads one buffer after a stretch of host operations as the operations' functions applied to the
contents the stretch started from; a buffer the stretch does not write is unchanged. -/

section Stretches

variable (W : Valuation τ sig (Elt F))

/-- Between the first two regions: the partial-current array read back as a node vector. -/
theorem mid_v38 : StableHlo.after hostOps1 W (Proc.devRef .tc main_v38) = Term.unpad (W (Proc.devRef .tc main_v34_1)) := by
  dsimp only [hostOps1]
  after_results_simp
  rfl

/-- Between the first two regions: the edge weights laid out on 50000 rows. -/
theorem mid_v46 : StableHlo.after hostOps1 W (Proc.devRef .tc main_v46)
    = shapeCast S50000x128 (W (Proc.devRef .tc main_arg5)) shapeCasts_S6400000_S50000x128 := by
  dsimp only [hostOps1]
  after_results_simp
  rfl

/-- Between the first two regions: the activation read back, gathered at the edges' source nodes (an index counted
    from the end when negative) and laid out on 50000 rows. -/
theorem mid_v47 : StableHlo.after hostOps1 W (Proc.devRef .tc main_v47)
    = shapeCast S50000x128 (Host.gather gather_S100000_S6400000x1_S6400000_n_0_n_n_0_1_1
        (Term.unpad (W (Proc.devRef .tc main_v34_0))) (Term.wrapCol (W (Proc.devRef .tc main_v1))))
        shapeCasts_S6400000_S50000x128 := by
  dsimp only [hostOps1]
  after_results_simp
  rfl

/-- The destination nodes are not written between the first two regions. -/
theorem mid_v3 : StableHlo.after hostOps1 W (Proc.devRef .tc main_v3) = W (Proc.devRef .tc main_v3) := by
  dsimp only [hostOps1]
  after_results_simp

/-- The capacitances are not written between the first two regions. -/
theorem mid_arg14 : StableHlo.after hostOps1 W (Proc.devRef .tc main_arg14) = W (Proc.devRef .tc main_arg14) := by
  dsimp only [hostOps1]
  after_results_simp

/-- Between the last two regions: the partial current laid out on 782 rows, the trailing places filled with the
    converted integer zero. -/
theorem pre_v54 :
    StableHlo.after hostOps2_6 (StableHlo.after hostOps2_5 (StableHlo.after hostOps2_4 (StableHlo.after hostOps2_3
      (StableHlo.after hostOps2_2 (StableHlo.after hostOps2_1 (StableHlo.after hostOps2 W))))))
        (Proc.devRef .tc main_v54) = Term.padR (W (Proc.devRef .tc main_v38)) := by
  dsimp only [hostOps2, hostOps2_1, hostOps2_2, hostOps2_3, hostOps2_4, hostOps2_5, hostOps2_6]
  after_results_simp
  simp only [StableHlo.TRef.ofBuf_toBuf, StableHlo.TRef.toBuf_ofBuf]
  rfl

/-- Between the last two regions: the edge messages read back from their 50000 rows and summed into the edges'
    destination nodes, starting from zero; the sums laid out on 782 rows. -/
theorem pre_v56 :
    StableHlo.after hostOps2_6 (StableHlo.after hostOps2_5 (StableHlo.after hostOps2_4 (StableHlo.after hostOps2_3
      (StableHlo.after hostOps2_2 (StableHlo.after hostOps2_1 (StableHlo.after hostOps2 W))))))
        (Proc.devRef .tc main_v56)
      = Term.padR (Host.scatterAdd scatter_S100000_S6400000x1_S6400000_n_0_0_1
          (broadcastInDim S100000 ![] bcast_S_S100000 (constant S_ .f32 0x00000000#32))
          (broadcastInDim S6400000x1 ![0] bcast_S6400000_S6400000x1_0 (W (Proc.devRef .tc main_v3)))
          (shapeCast S6400000 (W (Proc.devRef .tc main_v48)) shapeCasts_S50000x128_S6400000)) := by
  dsimp only [hostOps2, hostOps2_1, hostOps2_2, hostOps2_3, hostOps2_4, hostOps2_5, hostOps2_6]
  after_results_simp
  simp only [StableHlo.TRef.ofBuf_toBuf, StableHlo.TRef.toBuf_ofBuf]
  rfl

/-- Between the last two regions: the capacitances laid out on 782 rows. -/
theorem pre_v58 :
    StableHlo.after hostOps2_6 (StableHlo.after hostOps2_5 (StableHlo.after hostOps2_4 (StableHlo.after hostOps2_3
      (StableHlo.after hostOps2_2 (StableHlo.after hostOps2_1 (StableHlo.after hostOps2 W))))))
        (Proc.devRef .tc main_v58) = Term.padR (W (Proc.devRef .tc main_arg14)) := by
  dsimp only [hostOps2, hostOps2_1, hostOps2_2, hostOps2_3, hostOps2_4, hostOps2_5, hostOps2_6]
  after_results_simp
  simp only [StableHlo.TRef.ofBuf_toBuf, StableHlo.TRef.toBuf_ofBuf]
  rfl

/-- After the last region: its array read back as a node vector and made a column. -/
theorem tail_v62 : StableHlo.after hostOps3 W (Proc.devRef .tc main_v62)
    = broadcastInDim S100000x1 ![0] bcast_S100000_S100000x1_0 (Term.unpad (W (Proc.devRef .tc main_v59))) := by
  dsimp only [hostOps3]
  after_results_simp
  rfl

end Stretches

/-! ## The ladder from the first region's entry to the result -/

variable (m : (ℓ : Loc nD τ sig) → Buf (Elt F) ℓ) (ρ : Dev nD → PrngReg) (c : Dev nD)

/-- The first region leaves the logistic payload of the laid-out voltage, half-voltage and slope. -/
theorem w32_act : W32 m ρ c (Proc.devRef .tc main_v34_0) = k0_pay3 (Term.padR (m ((c : Thread nD τ).loc main_arg0))) (Term.padR (m ((c : Thread nD τ).loc main_arg6))) (Term.padR (m ((c : Thread nD τ).loc main_arg7))) := by
  refine (W32_arr m ρ c 15).trans ?_
  refine (Region.arr0_15 (V31 m ρ) c).trans ?_
  show k0_pay3 (W31 m ρ c (Proc.devRef .tc main_v5)) (W31 m ρ c (Proc.devRef .tc main_v7)) (W31 m ρ c (Proc.devRef .tc main_v9)) = _
  rw [Entry.w31_v5, Entry.w31_v7, Entry.w31_v9]

/-- The first region leaves the current without its synaptic part, of the fourteen laid-out node vectors it reads. -/
theorem w32_cur : W32 m ρ c (Proc.devRef .tc main_v34_1)
    = k0_pay1 (k0_pay2 (Term.padR (m ((c : Thread nD τ).loc main_arg0)))) (k0_pay4 (Term.padR (m ((c : Thread nD τ).loc main_arg0))) (Term.padR (m ((c : Thread nD τ).loc main_arg8))) (Term.padR (m ((c : Thread nD τ).loc main_arg2))) (Term.padR (m ((c : Thread nD τ).loc main_arg3))) (Term.padR (m ((c : Thread nD τ).loc main_arg11))))
        (k0_pay5 (Term.padR (m ((c : Thread nD τ).loc main_arg0))) (Term.padR (m ((c : Thread nD τ).loc main_arg9))) (Term.padR (m ((c : Thread nD τ).loc main_arg4))) (Term.padR (m ((c : Thread nD τ).loc main_arg12)))) (Term.padR (m ((c : Thread nD τ).loc main_arg10))) (Term.padR (m ((c : Thread nD τ).loc main_arg13))) (Term.padR (m ((c : Thread nD τ).loc main_arg15))) (Term.padR (m ((c : Thread nD τ).loc main_arg16))) (Term.padR (m ((c : Thread nD τ).loc main_arg1))) := by
  refine (W32_arr m ρ c 16).trans ?_
  refine (Region.arr0_16 (V31 m ρ) c).trans ?_
  show k0_pay1 (k0_pay2 (W31 m ρ c (Proc.devRef .tc main_v5))) (k0_pay4 (W31 m ρ c (Proc.devRef .tc main_v5)) (W31 m ρ c (Proc.devRef .tc main_v17)) (W31 m ρ c (Proc.devRef .tc main_v11)) (W31 m ρ c (Proc.devRef .tc main_v13)) (W31 m ρ c (Proc.devRef .tc main_v23)))
      (k0_pay5 (W31 m ρ c (Proc.devRef .tc main_v5)) (W31 m ρ c (Proc.devRef .tc main_v19)) (W31 m ρ c (Proc.devRef .tc main_v15)) (W31 m ρ c (Proc.devRef .tc main_v25))) (W31 m ρ c (Proc.devRef .tc main_v21)) (W31 m ρ c (Proc.devRef .tc main_v27)) (W31 m ρ c (Proc.devRef .tc main_v29)) (W31 m ρ c (Proc.devRef .tc main_v31)) (W31 m ρ c (Proc.devRef .tc main_v33)) = _
  rw [Entry.w31_v5, Entry.w31_v11, Entry.w31_v13, Entry.w31_v15, Entry.w31_v17, Entry.w31_v19, Entry.w31_v21,
    Entry.w31_v23, Entry.w31_v25, Entry.w31_v27, Entry.w31_v29, Entry.w31_v31, Entry.w31_v33]

/-- The first region writes neither row of the edge list, nor the weights, nor the capacitances. -/
theorem w32_v1 : W32 m ρ c (Proc.devRef .tc main_v1) = Term.srcIdx (m ((c : Thread nD τ).loc main_arg17)) :=
  (W32_of_ne m ρ c main_v1 (by decide)).trans (Entry.w31_v1 m ρ c)
theorem w32_v3 : W32 m ρ c (Proc.devRef .tc main_v3) = Term.dstIdx (m ((c : Thread nD τ).loc main_arg17)) :=
  (W32_of_ne m ρ c main_v3 (by decide)).trans (Entry.w31_v3 m ρ c)
theorem w32_arg5 : W32 m ρ c (Proc.devRef .tc main_arg5) = m ((c : Thread nD τ).loc main_arg5) :=
  (W32_of_ne m ρ c main_arg5 (by decide)).trans (Entry.w31_arg5 m ρ c)
theorem w32_arg14 : W32 m ρ c (Proc.devRef .tc main_arg14) = m ((c : Thread nD τ).loc main_arg14) :=
  (W32_of_ne m ρ c main_arg14 (by decide)).trans (Entry.w31_arg14 m ρ c)

/-- As the second region finds them: the partial current as a node vector; -/
theorem w33_v38 : W33 m ρ c (Proc.devRef .tc main_v38) = (Term.partialCur (m ((c : Thread nD τ).loc main_arg0)) (m ((c : Thread nD τ).loc main_arg2)) (m ((c : Thread nD τ).loc main_arg3)) (m ((c : Thread nD τ).loc main_arg4)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg15)) (m ((c : Thread nD τ).loc main_arg16)) (m ((c : Thread nD τ).loc main_arg1))) := by
  refine (mid_v38 (W32 m ρ c)).trans ?_
  rw [w32_cur]
  rfl
/-- the weights on 50000 rows; -/
theorem w33_v46 : W33 m ρ c (Proc.devRef .tc main_v46)
    = shapeCast S50000x128 (m ((c : Thread nD τ).loc main_arg5)) shapeCasts_S6400000_S50000x128 := by
  refine (mid_v46 (W32 m ρ c)).trans ?_
  rw [w32_arg5]
/-- the activation at the edges' sources on 50000 rows; -/
theorem w33_v47 : W33 m ρ c (Proc.devRef .tc main_v47)
    = shapeCast S50000x128 (Host.gather gather_S100000_S6400000x1_S6400000_n_0_n_n_0_1_1 (Term.act (m ((c : Thread nD τ).loc main_arg0)) (m ((c : Thread nD τ).loc main_arg6)) (m ((c : Thread nD τ).loc main_arg7))) (Term.wrapCol (Term.srcIdx (m ((c : Thread nD τ).loc main_arg17))))) shapeCasts_S6400000_S50000x128 := by
  refine (mid_v47 (W32 m ρ c)).trans ?_
  rw [w32_act, w32_v1]
  rfl
/-- the destinations and the capacitances as they were. -/
theorem w33_v3 : W33 m ρ c (Proc.devRef .tc main_v3) = Term.dstIdx (m ((c : Thread nD τ).loc main_arg17)) :=
  (mid_v3 (W32 m ρ c)).trans (w32_v3 m ρ c)
theorem w33_arg14 : W33 m ρ c (Proc.devRef .tc main_arg14) = m ((c : Thread nD τ).loc main_arg14) :=
  (mid_arg14 (W32 m ρ c)).trans (w32_arg14 m ρ c)

/-- The second region leaves the product of the weights and the gathered activation, place by place. -/
theorem w34_v48 : W34 m ρ c (Proc.devRef .tc main_v48)
    = mulf (shapeCast S50000x128 (m ((c : Thread nD τ).loc main_arg5)) shapeCasts_S6400000_S50000x128 : FVec F S50000x128 .f32)
        (shapeCast S50000x128 (Host.gather gather_S100000_S6400000x1_S6400000_n_0_n_n_0_1_1 (Term.act (m ((c : Thread nD τ).loc main_arg0)) (m ((c : Thread nD τ).loc main_arg6)) (m ((c : Thread nD τ).loc main_arg7))) (Term.wrapCol (Term.srcIdx (m ((c : Thread nD τ).loc main_arg17))))) shapeCasts_S6400000_S50000x128) := by
  refine (W34_arr m ρ c 2).trans ?_
  refine (Region.arr1_2 (V33 m ρ) c).trans ?_
  show mulf (W33 m ρ c (Proc.devRef .tc main_v46) : FVec F S50000x128 .f32) (W33 m ρ c (Proc.devRef .tc main_v47)) = _
  rw [w33_v46, w33_v47]

/-- The second region writes neither the partial current, nor the destinations, nor the capacitances. -/
theorem w34_v38 : W34 m ρ c (Proc.devRef .tc main_v38) = (Term.partialCur (m ((c : Thread nD τ).loc main_arg0)) (m ((c : Thread nD τ).loc main_arg2)) (m ((c : Thread nD τ).loc main_arg3)) (m ((c : Thread nD τ).loc main_arg4)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg15)) (m ((c : Thread nD τ).loc main_arg16)) (m ((c : Thread nD τ).loc main_arg1))) :=
  (W34_of_ne m ρ c main_v38 (by decide)).trans (w33_v38 m ρ c)
theorem w34_v3 : W34 m ρ c (Proc.devRef .tc main_v3) = Term.dstIdx (m ((c : Thread nD τ).loc main_arg17)) :=
  (W34_of_ne m ρ c main_v3 (by decide)).trans (w33_v3 m ρ c)
theorem w34_arg14 : W34 m ρ c (Proc.devRef .tc main_arg14) = m ((c : Thread nD τ).loc main_arg14) :=
  (W34_of_ne m ρ c main_arg14 (by decide)).trans (w33_arg14 m ρ c)

/-- As the third region finds them: the partial current, -/
theorem w41_v54 : W41 m ρ c (Proc.devRef .tc main_v54) = Term.padR (Term.partialCur (m ((c : Thread nD τ).loc main_arg0)) (m ((c : Thread nD τ).loc main_arg2)) (m ((c : Thread nD τ).loc main_arg3)) (m ((c : Thread nD τ).loc main_arg4)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg15)) (m ((c : Thread nD τ).loc main_arg16)) (m ((c : Thread nD τ).loc main_arg1))) := by
  refine (pre_v54 (W34 m ρ c)).trans ?_
  rw [w34_v38]
/-- the synaptic current (the messages summed into their destinations) -/
theorem w41_v56 : W41 m ρ c (Proc.devRef .tc main_v56) = Term.padR (Term.synCur (m ((c : Thread nD τ).loc main_arg17)) (m ((c : Thread nD τ).loc main_arg5)) (Term.act (m ((c : Thread nD τ).loc main_arg0)) (m ((c : Thread nD τ).loc main_arg6)) (m ((c : Thread nD τ).loc main_arg7)))) := by
  refine (pre_v56 (W34 m ρ c)).trans ?_
  rw [w34_v3, w34_v48]
  rfl
/-- and the capacitances, each on 782 rows. -/
theorem w41_v58 : W41 m ρ c (Proc.devRef .tc main_v58) = Term.padR (m ((c : Thread nD τ).loc main_arg14)) := by
  refine (pre_v58 (W34 m ρ c)).trans ?_
  rw [w34_arg14]

/-- The third region leaves the sum of the two currents over the capacitance. -/
theorem w42_v59 : W42 m ρ c (Proc.devRef .tc main_v59)
    = k2_pay1 (Term.padR (Term.partialCur (m ((c : Thread nD τ).loc main_arg0)) (m ((c : Thread nD τ).loc main_arg2)) (m ((c : Thread nD τ).loc main_arg3)) (m ((c : Thread nD τ).loc main_arg4)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg15)) (m ((c : Thread nD τ).loc main_arg16)) (m ((c : Thread nD τ).loc main_arg1)))) (Term.padR (Term.synCur (m ((c : Thread nD τ).loc main_arg17)) (m ((c : Thread nD τ).loc main_arg5)) (Term.act (m ((c : Thread nD τ).loc main_arg0)) (m ((c : Thread nD τ).loc main_arg6)) (m ((c : Thread nD τ).loc main_arg7))))) (Term.padR (m ((c : Thread nD τ).loc main_arg14))) := by
  refine (W42_arr m ρ c 3).trans ?_
  refine (Region.arr2_3 (V41 m ρ) c).trans ?_
  show k2_pay1 (W41 m ρ c (Proc.devRef .tc main_v54)) (W41 m ρ c (Proc.devRef .tc main_v56))
    (W41 m ρ c (Proc.devRef .tc main_v58)) = _
  rw [w41_v54, w41_v56, w41_v58]

/-- The result buffer holds the program's composed term of the arguments' launch contents. -/
theorem result_eq : W43 m ρ c (Proc.devRef .tc main_v62)
    = Term.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  refine (tail_v62 (W42 m ρ c)).trans ?_
  rw [w42_v59]
  rfl

end Cert.KernelIdeal.Fold

end
-- ==== Proof.Layout.lean ====
/-
  The layouts cancel.

  A node vector laid out on 782 rows of 128 lanes and read back is itself: place i of the read-back is place i of the
  100096-long padded vector, which lies inside the operand.  An edge vector laid out on 50000 rows and read back is
  itself.  Laying out, reading back and gathering are re-indexings, so an operation applied entry by entry commutes
  with them; hence each array the program computes between its regions is the same entry-by-entry operation applied to
  the node (or edge) vectors themselves.
-/
import proofs.«160053_j34677565948816_2_alg».proof.Proof.KernelTerm
import Idealize.ShloMosaic.Lib.Pipeline.Value
import Idealize.ShloMosaic.Lib.KernelVsHost

noncomputable section

namespace Cert.KernelIdeal.Term

open Idealize.ShloMosaic Idealize.ShloMosaic.ValueIdx Cert.KernelIdeal Cert.KernelIdeal.Gen

variable {F : FTy → Type} [FloatOps F]

/-- Reading back the first 100000 places of a laid-out node vector gives the vector. -/
theorem unpad_padR (x : (⟨S100000, .f32⟩ : BufTy).Contents (Elt F)) : unpad (padR x) = x := by
  funext i
  unfold unpad padR
  rw [shapeCast_shapeCast]
  unfold extractStridedSlice
  refine pad_apply_of_inside _ _ _ x fill _ _ _ i fun a => ?_
  obtain rfl : a = 0 := Subsingleton.elim _ _
  show 0 + (i 0).val = 0 + (i 0).val * (0 + 1)
  omega

/-- Every node's activation is the logistic function of (v - v_half) / slope there. -/
theorem act_eq (v vh vs : (⟨S100000, .f32⟩ : BufTy).Contents (Elt F)) :
    act v vh vs = logistic (divf (subf v vh) vs) := by
  unfold act k0_pay3 k0_pay2
  simp only [shapeCast_self]
  show logistic (divf (subf (unpad (padR v)) (unpad (padR vh))) (unpad (padR vs))) = _
  rw [unpad_padR, unpad_padR, unpad_padR]

/-- Every node's current without the synapses, on the node vectors themselves. -/
theorem partialCur_eq (v hm hh hn gNa gK gL eNa eK eL ib sc st : (⟨S100000, .f32⟩ : BufTy).Contents (Elt F)) :
    partialCur v hm hh hn gNa gK gL eNa eK eL ib sc st
      = addf (subf (subf (subf (broadcast S100000 (Scalar.ofBits .f32 0x00000000#32))
            (mulf (mulf (mulf gNa (mulf hm (mulf hm hm))) hh) (subf v eNa)))
            (mulf (mulf gK (mulf (mulf hn hn) (mulf hn hn))) (subf v eK)))
            (mulf gL (subf v eL)))
          (addf ib (mulf sc st)) := by
  unfold partialCur k0_pay1 k0_pay4 k0_pay5 k0_pay2
  simp only [shapeCast_self]
  show addf (subf (subf (subf (broadcast S100000 (Scalar.ofBits .f32 0x00000000#32))
            (mulf (mulf (mulf (unpad (padR gNa)) (mulf (unpad (padR hm)) (mulf (unpad (padR hm)) (unpad (padR hm))))) (unpad (padR hh)))
              (subf (unpad (padR v)) (unpad (padR eNa)))))
            (mulf (mulf (unpad (padR gK)) (mulf (mulf (unpad (padR hn)) (unpad (padR hn))) (mulf (unpad (padR hn)) (unpad (padR hn)))))
              (subf (unpad (padR v)) (unpad (padR eK)))))
            (mulf (unpad (padR gL)) (subf (unpad (padR v)) (unpad (padR eL)))))
          (addf (unpad (padR ib)) (mulf (unpad (padR sc)) (unpad (padR st)))) = _
  simp only [unpad_padR]

/-- Every edge's message is its weight times the gathered activation, on the edge vectors themselves. -/
theorem edgeMsg_eq (w a : (⟨S6400000, .f32⟩ : BufTy).Contents (Elt F)) : edgeMsg w a = mulf w a := by
  unfold edgeMsg
  show mulf (shapeCast S6400000 (shapeCast S50000x128 w shapeCasts_S6400000_S50000x128) shapeCasts_S50000x128_S6400000)
      (shapeCast S6400000 (shapeCast S50000x128 a shapeCasts_S6400000_S50000x128) shapeCasts_S50000x128_S6400000) = _
  rw [shapeCast_shapeCast, shapeCast_shapeCast]

/-- The program's result on the node vectors themselves: (partial current + synaptic current) / capacitance. -/
theorem result_eq_nodes (v st hm hh hn : (⟨S100000, .f32⟩ : BufTy).Contents (Elt F)) (w : (⟨S6400000, .f32⟩ : BufTy).Contents (Elt F))
    (vh vs gNa gK gL eNa eK eL cap ib sc : (⟨S100000, .f32⟩ : BufTy).Contents (Elt F))
    (ei : (⟨S2x6400000, .i32⟩ : BufTy).Contents (Elt F)) :
    result v st hm hh hn w vh vs gNa gK gL eNa eK eL cap ib sc ei
      = broadcastInDim S100000x1 ![0] bcast_S100000_S100000x1_0
          (divf (addf (partialCur v hm hh hn gNa gK gL eNa eK eL ib sc st) (synCur ei w (act v vh vs))) cap) := by
  unfold result k2_pay1
  simp only [shapeCast_self]
  show broadcastInDim S100000x1 ![0] bcast_S100000_S100000x1_0
      (divf (addf (unpad (padR (partialCur v hm hh hn gNa gK gL eNa eK eL ib sc st))) (unpad (padR (synCur ei w (act v vh vs)))))
        (unpad (padR cap))) = _
  simp only [unpad_padR]

/-- The result depends on the eighteen argument arrays only: equal arguments, equal results. -/
theorem result_congr {v v' st st' hm hm' hh hh' hn hn' : (⟨S100000, .f32⟩ : BufTy).Contents (Elt F)}
    {w w' : (⟨S6400000, .f32⟩ : BufTy).Contents (Elt F)}
    {vh vh' vs vs' gNa gNa' gK gK' gL gL' eNa eNa' eK eK' eL eL' cap cap' ib ib' sc sc' : (⟨S100000, .f32⟩ : BufTy).Contents (Elt F)}
    {ei ei' : (⟨S2x6400000, .i32⟩ : BufTy).Contents (Elt F)}
    (h0 : v = v') (h1 : st = st') (h2 : hm = hm') (h3 : hh = hh') (h4 : hn = hn') (h5 : w = w') (h6 : vh = vh') (h7 : vs = vs')
    (h8 : gNa = gNa') (h9 : gK = gK') (h10 : gL = gL') (h11 : eNa = eNa') (h12 : eK = eK') (h13 : eL = eL') (h14 : cap = cap')
    (h15 : ib = ib') (h16 : sc = sc') (h17 : ei = ei') :
    result v st hm hh hn w vh vs gNa gK gL eNa eK eL cap ib sc ei
      = result v' st' hm' hh' hn' w' vh' vs' gNa' gK' gL' eNa' eK' eL' cap' ib' sc' ei' := by
  subst h0 h1 h2 h3 h4 h5 h6 h7 h8 h9 h10 h11 h12 h13 h14 h15 h16 h17
  rfl

end Cert.KernelIdeal.Term

end
-- ==== Proof.Bridge.lean ====
/-
  The two programs compute one function on the extended reals.

  The reference gathers voltage, half-voltage and slope at each edge's source and applies 1 / (1 + exp (-z)) to
  z = (v - v_half) / slope per edge; the kernel program applies the logistic function per node and gathers the result.  A
  gather is a re-indexing, and on the extended reals the logistic function IS 1 / (1 + exp (-z)), so the per-edge
  activations agree, hence the messages, hence their sums into the destination nodes.  The rest differs in three places:
  the kernel negates the sodium current as 0 - I where the reference negates it; it cubes the gate as m (m m) where the
  reference has (m m) m; and it adds the external current before the synaptic one where the reference adds it after.
  Negation as 0 - x, commutativity of the product and commutativity and associativity of the sum hold for all extended
  reals, so no finiteness of the inputs is used.
-/
import proofs.«160053_j34677565948816_2_alg».proof.Proof.Layout
import Idealize.ShloMosaic.Lib.IdealHost
import Idealize.ShloMosaic.PureOps.Ideal.Laws

noncomputable section

namespace Cert.KernelIdeal.Term

open Idealize.ShloMosaic Idealize.ShloMosaic.ValueIdx Cert.KernelIdeal Cert.KernelIdeal.Gen

/-- The float one, at every edge. -/
abbrev edgeOnes : FVec Ideal S6400000 .f32 :=
  broadcastInDim S6400000 ![] bcast_S_S6400000 (constant (F := Ideal) S_ .f32 0x3F800000#32)

/-- Gathering the per-node activation is applying 1 / (1 + exp (-z)) to the gathered voltage, half-voltage and slope. -/
theorem gather_act (v vh vs : FVec Ideal S100000 .f32) (idx : IVec S6400000x1 32) :
    Host.gather gather_S100000_S6400000x1_S6400000_n_0_n_n_0_1_1 (logistic (divf (subf v vh) vs)) idx
      = Host.divf edgeOnes (addf edgeOnes (Host.exp (Host.negf (Host.divf
          (subf (Host.gather gather_S100000_S6400000x1_S6400000_n_0_n_n_0_1_1 v idx)
            (Host.gather gather_S100000_S6400000x1_S6400000_n_0_n_n_0_1_1 vh idx))
          (Host.gather gather_S100000_S6400000x1_S6400000_n_0_n_n_0_1_1 vs idx))))) := by
  funext e
  show Ideal.logistic _ = Ideal.div (Ideal.ofBits .f32 0x3F800000#32) (Ideal.ofBits .f32 0x3F800000#32 + Ideal.exp (-_))
  rw [Ideal.ofBits_one_f32]
  rfl

/-- The reference's term of the argument arrays is the kernel program's result. -/
theorem ref_term_eq (v st hm hh hn : FVec Ideal S100000 .f32) (w : FVec Ideal S6400000 .f32)
    (vh vs gNa gK gL eNa eK eL cap ib sc : FVec Ideal S100000 .f32) (ei : IVec S2x6400000 32) :
    broadcastInDim S100000x1 ![0] bcast_S100000_S100000x1_0
      (Host.divf (addf (addf (subf (subf
          (Host.negf (mulf (mulf (mulf gNa (mulf (mulf hm hm) hm)) hh) (subf v eNa)))
          (mulf (mulf gK (mulf (mulf hn hn) (mulf hn hn))) (subf v eK)))
          (mulf gL (subf v eL)))
          (Host.scatterAdd scatter_S100000_S6400000x1_S6400000_n_0_0_1
            (broadcastInDim S100000 ![] bcast_S_S100000 (constant (F := Ideal) S_ .f32 0x00000000#32))
            (broadcastInDim S6400000x1 ![0] bcast_S6400000_S6400000x1_0 (dstIdx (F := Ideal) ei))
            (mulf w (Host.divf edgeOnes (addf edgeOnes (Host.exp (Host.negf (Host.divf
              (subf (Host.gather gather_S100000_S6400000x1_S6400000_n_0_n_n_0_1_1 v (wrapCol (F := Ideal) (srcIdx (F := Ideal) ei)))
                (Host.gather gather_S100000_S6400000x1_S6400000_n_0_n_n_0_1_1 vh (wrapCol (F := Ideal) (srcIdx (F := Ideal) ei))))
              (Host.gather gather_S100000_S6400000x1_S6400000_n_0_n_n_0_1_1 vs (wrapCol (F := Ideal) (srcIdx (F := Ideal) ei)))))))))))
          (addf ib (mulf sc st))) cap)
      = result (F := Ideal) v st hm hh hn w vh vs gNa gK gL eNa eK eL cap ib sc ei := by
  rw [result_eq_nodes, partialCur_eq, act_eq]
  unfold synCur
  rw [edgeMsg_eq, gather_act]
  refine congrArg (fun z : FVec Ideal S100000 .f32 => broadcastInDim S100000x1 ![0] bcast_S100000_S100000x1_0 z) ?_
  funext i
  show Ideal.div (((((-(gNa i * (hm i * hm i * hm i) * hh i * (v i - eNa i))) - _) - _) + _) + _) (cap i)
    = Ideal.div ((((Ideal.ofBits .f32 0x00000000#32 - gNa i * (hm i * (hm i * hm i)) * hh i * (v i - eNa i)) - _) - _) + _ + _) (cap i)
  rw [Ideal.ofBits_zero_f32, zero_sub, mul_comm (hm i) (hm i * hm i)]
  refine congrArg (fun z => Ideal.div z (cap i)) ?_
  exact add_right_comm _ _ _

end Cert.KernelIdeal.Term

end
-- ==== Proof.RefResult.lean ====
/-
  The reference's result term is the kernel program's composed result, of the reference's own arguments.

  The generated run of the reference ends with its result buffer at one long composition of its operations on the
  launch contents of its arguments.  That composition, with each argument array named, is the left-hand side of the
  bridge between the two programs; the two programs' shapes and dimension records are the same literals.
-/
import proofs.«160053_j34677565948816_2_alg».proof.Proof.Gen.ReferenceIdeal.Run
import proofs.«160053_j34677565948816_2_alg».proof.Proof.Bridge

noncomputable section

namespace Cert.ReferenceIdeal.RefValue

open Idealize.ShloMosaic Idealize.ShloMosaic.TcCoe Idealize.SL.Sem

/-- On every device the reference's result term is the kernel program's result function of the reference's arguments. -/
theorem res_eq (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v58 (F := Ideal) m c
      = Cert.KernelIdeal.Term.result (F := Ideal)
      (m ((c.tc : Thread Cert.ReferenceIdeal.nD Cert.ReferenceIdeal.τ).loc Cert.ReferenceIdeal.main_arg0))
      (m ((c.tc : Thread Cert.ReferenceIdeal.nD Cert.ReferenceIdeal.τ).loc Cert.ReferenceIdeal.main_arg1))
      (m ((c.tc : Thread Cert.ReferenceIdeal.nD Cert.ReferenceIdeal.τ).loc Cert.ReferenceIdeal.main_arg2))
      (m ((c.tc : Thread Cert.ReferenceIdeal.nD Cert.ReferenceIdeal.τ).loc Cert.ReferenceIdeal.main_arg3))
      (m ((c.tc : Thread Cert.ReferenceIdeal.nD Cert.ReferenceIdeal.τ).loc Cert.ReferenceIdeal.main_arg4))
      (m ((c.tc : Thread Cert.ReferenceIdeal.nD Cert.ReferenceIdeal.τ).loc Cert.ReferenceIdeal.main_arg5))
      (m ((c.tc : Thread Cert.ReferenceIdeal.nD Cert.ReferenceIdeal.τ).loc Cert.ReferenceIdeal.main_arg6))
      (m ((c.tc : Thread Cert.ReferenceIdeal.nD Cert.ReferenceIdeal.τ).loc Cert.ReferenceIdeal.main_arg7))
      (m ((c.tc : Thread Cert.ReferenceIdeal.nD Cert.ReferenceIdeal.τ).loc Cert.ReferenceIdeal.main_arg8))
      (m ((c.tc : Thread Cert.ReferenceIdeal.nD Cert.ReferenceIdeal.τ).loc Cert.ReferenceIdeal.main_arg9))
      (m ((c.tc : Thread Cert.ReferenceIdeal.nD Cert.ReferenceIdeal.τ).loc Cert.ReferenceIdeal.main_arg10))
      (m ((c.tc : Thread Cert.ReferenceIdeal.nD Cert.ReferenceIdeal.τ).loc Cert.ReferenceIdeal.main_arg11))
      (m ((c.tc : Thread Cert.ReferenceIdeal.nD Cert.ReferenceIdeal.τ).loc Cert.ReferenceIdeal.main_arg12))
      (m ((c.tc : Thread Cert.ReferenceIdeal.nD Cert.ReferenceIdeal.τ).loc Cert.ReferenceIdeal.main_arg13))
      (m ((c.tc : Thread Cert.ReferenceIdeal.nD Cert.ReferenceIdeal.τ).loc Cert.ReferenceIdeal.main_arg14))
      (m ((c.tc : Thread Cert.ReferenceIdeal.nD Cert.ReferenceIdeal.τ).loc Cert.ReferenceIdeal.main_arg15))
      (m ((c.tc : Thread Cert.ReferenceIdeal.nD Cert.ReferenceIdeal.τ).loc Cert.ReferenceIdeal.main_arg16))
      (m ((c.tc : Thread Cert.ReferenceIdeal.nD Cert.ReferenceIdeal.τ).loc Cert.ReferenceIdeal.main_arg17)) := by
  unfold Cert.ReferenceIdeal.Value.res_main_v58
  exact Cert.KernelIdeal.Term.ref_term_eq _ _ _ _ _ _ _ _ _ _ _ _ _ _ _ _ _ _

end Cert.ReferenceIdeal.RefValue

end
-- ==== Proof.lean ====
/-
  The certificate of the Hodgkin-Huxley node update: the kernel program (three kernels among host operations) against
  the reference, equal on the extended reals.

  Both programs give every node (partial current + synaptic current) / capacitance, where the synaptic current of a
  node is the sum, over the edges ending there, of weight times the logistic activation of the edge's source.  The
  kernel program computes the activation once per node and gathers it, pads its node vectors to 782 rows of 128 lanes
  around its kernels, and orders two sums and one product differently; none of this changes the value on the extended
  reals (Proof/Bridge.lean), so the claim needs no property of the inputs.

  The kernel program's run and the contents of its result buffer come from the frame's fold of segments
  (Proof/KernelRun.lean, Proof/ResultFold.lean over Proof/EntryFold.lean and Proof/RegionArrays.lean); the reference's run
  and its result term are the generated ones.  The ideal pass rewrote nothing, so the idealization conjunct is trivial.
-/
import proofs.«160053_j34677565948816_2_alg».proof.Defs
import proofs.«160053_j34677565948816_2_alg».proof.Proof.Gen.Kernel
import proofs.«160053_j34677565948816_2_alg».proof.Proof.Gen.Kernel.Skeleton
import proofs.«160053_j34677565948816_2_alg».proof.Proof.Gen.Kernel.Launch
import proofs.«160053_j34677565948816_2_alg».proof.Proof.Gen.Kernel.Points
import proofs.«160053_j34677565948816_2_alg».proof.Proof.Gen.Kernel.Frame
import proofs.«160053_j34677565948816_2_alg».proof.Proof.Gen.KernelIdeal
import proofs.«160053_j34677565948816_2_alg».proof.Proof.Gen.KernelIdeal.Skeleton
import proofs.«160053_j34677565948816_2_alg».proof.Proof.Gen.KernelIdeal.Launch
import proofs.«160053_j34677565948816_2_alg».proof.Proof.Gen.KernelIdeal.Points
import proofs.«160053_j34677565948816_2_alg».proof.Proof.Gen.KernelIdeal.Frame
import proofs.«160053_j34677565948816_2_alg».proof.Proof.Gen.ReferenceIdeal
import proofs.«160053_j34677565948816_2_alg».proof.Proof.Gen.ReferenceIdeal.Run
import proofs.«160053_j34677565948816_2_alg».proof.Proof.Gen.Pre_finite_inputs
import proofs.«160053_j34677565948816_2_alg».proof.Proof.KernelRun
import proofs.«160053_j34677565948816_2_alg».proof.Proof.ResultFold
import proofs.«160053_j34677565948816_2_alg».proof.Proof.Bridge
import proofs.«160053_j34677565948816_2_alg».proof.Proof.RefResult
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference has no kernel: its frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end with the same column: the kernel program's composed result of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Term.result (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17)), ?_, ?_⟩
  · exact (θ_run Cert.KernelIdeal.defs _ _).mono
      (fun _ h c => ⟨(h c).1.trans (Cert.KernelIdeal.Fold.result_eq m ρ c), (h c).2⟩)
      (Cert.KernelIdeal.Run.run_result (F := Ideal) m ρ)
  · refine (θ_run Cert.ReferenceIdeal.defs _ _).mono
      (fun _ h c => ⟨(h c).1.trans ((Cert.ReferenceIdeal.RefValue.res_eq m' c).trans ?_), (h c).2⟩)
      (Cert.ReferenceIdeal.Value.run (F := Ideal) m' ρ')
    obtain ⟨h0, h1, h2, h3, h4, h5, h6, h7, h8, h9, h10, h11, h12, h13, h14, h15, h16, h17⟩ := hagree c
    exact Cert.KernelIdeal.Term.result_congr h0 h1 h2 h3 h4 h5 h6 h7 h8 h9 h10 h11 h12 h13 h14 h15 h16 h17

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
